-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S500000x32 : Shape := ⟨2, ![500000, 32]⟩
abbrev S500000 : Shape := ⟨1, ![500000]⟩
abbrev S160x160 : Shape := ⟨2, ![160, 160]⟩
abbrev S160 : Shape := ⟨1, ![160]⟩
abbrev S224x224 : Shape := ⟨2, ![224, 224]⟩
abbrev S224 : Shape := ⟨1, ![224]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_
  bcast_S_S224x224 : S_.BroadcastsInDim S224x224 (![] : Fin 0 → Fin S224x224.rank)
  reducesTo_S224x224_S_d0_1 : S224x224.ReducesTo [0, 1] S_
  bcast_S_S224 : S_.BroadcastsInDim S224 (![] : Fin 0 → Fin S224.rank)
  reducesTo_S224_S_d0 : S224.ReducesTo [0] S_

variable [Facts]

def fn_part1 {F : FTy → Type} [FloatOps F] (main_arg6 : FVec F S224x224 .f32) (main_arg7 : FVec F S224 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S224x224 .f32 := Host.absf main_arg6
  let main_cst_6 : FVec F S_ .f32 := constant S_ .f32 0x7F800000#32
  let main_v20 : FVec F S224x224 .f32 := broadcastInDim S224x224 ![] bcast_S_S224x224 main_cst_6
  let main_v21 : IVec S224x224 1 := cmpf .olt main_v19 main_v20
  let main_c_7 : IVec S_ 1 := constantI S_ 1 1#1
  let main_v22 : IVec S_ 1 := (fun x v => Host.reduce IntOp.andi x v reducesTo_S224x224_S_d0_1 h_S_) main_v21 main_c_7
  let main_v23 : IVec S_ 1 := andi main_v18 main_v22
  let main_v24 : FVec F S224 .f32 := Host.absf main_arg7
  let main_cst_8 : FVec F S_ .f32 := constant S_ .f32 0x7F800000#32
  let main_v25 : FVec F S224 .f32 := broadcastInDim S224 ![] bcast_S_S224 main_cst_8
  let main_v26 : IVec S224 1 := cmpf .olt main_v24 main_v25
  let main_c_9 : IVec S_ 1 := constantI S_ 1 1#1
  let main_v27 : IVec S_ 1 := (fun x v => Host.reduce IntOp.andi x v reducesTo_S224_S_d0 h_S_) main_v26 main_c_9
  let main_v28 : IVec S_ 1 := andi main_v23 main_v27
  main_v28

def fn {F : FTy → Type} [FloatOps F] (main_arg0 : FVec F S50000x64 .f32) (main_arg1 : FVec F S500000x32 .f32) (main_arg2 : IVec S500000 32) (main_arg3 : IVec S500000 32) (main_arg4 : FVec F S160x160 .f32) (main_arg5 : FVec F S160 .f32) (main_arg6 : FVec F S224x224 .f32) (main_arg7 : FVec F S224 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S500000x32 .f32 := Host.absf main_arg1
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S160x160 .f32 := Host.absf main_arg4
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg5
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg6 main_arg7 main_v13 main_v16
-- ==== Kernel.lean ====
abbrev S50000x64 : Shape := ⟨2, ![50000, 64]⟩
abbrev S500000x32 : Shape := ⟨2, ![500000, 32]⟩
abbrev S500000 : Shape := ⟨1, ![500000]⟩
abbrev S160x160 : Shape := ⟨2, ![160, 160]⟩
abbrev S160 : Shape := ⟨1, ![160]⟩
abbrev S224x224 : Shape := ⟨2, ![224, 224]⟩
abbrev S224 : Shape := ⟨1, ![224]⟩
abbrev S_ : Shape := ⟨0, ![]⟩
abbrev S500000x1 : Shape := ⟨2, ![500000, 1]⟩
abbrev S500000x64 : Shape := ⟨2, ![500000, 64]⟩
abbrev S160x64 : Shape := ⟨2, ![160, 64]⟩
abbrev S64x160 : Shape := ⟨2, ![64, 160]⟩
abbrev S160x32 : Shape := ⟨2, ![160, 32]⟩
abbrev S32x160 : Shape := ⟨2, ![32, 160]⟩
abbrev S1x160 : Shape := ⟨2, ![1, 160]⟩
abbrev S500000x160 : Shape := ⟨2, ![500000, 160]⟩
abbrev S2000x64 : Shape := ⟨2, ![2000, 64]⟩
abbrev S2000x32 : Shape := ⟨2, ![2000, 32]⟩
abbrev S2000x160 : Shape := ⟨2, ![2000, 160]⟩
abbrev S50000x160 : Shape := ⟨2, ![50000, 160]⟩
abbrev S224x160 : Shape := ⟨2, ![224, 160]⟩
abbrev S160x224 : Shape := ⟨2, ![160, 224]⟩
abbrev S224x64 : Shape := ⟨2, ![224, 64]⟩
abbrev S64x224 : Shape := ⟨2, ![64, 224]⟩
abbrev S1x224 : Shape := ⟨2, ![1, 224]⟩
abbrev S50000x224 : Shape := ⟨2, ![50000, 224]⟩
abbrev S2000x224 : Shape := ⟨2, ![2000, 224]⟩

abbrev nBuf : Space → Nat
  | .hbm => 44
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S500000x32, .f32⟩
  | .hbm, ⟨2, _⟩ => ⟨S500000, .i32⟩
  | .hbm, ⟨3, _⟩ => ⟨S500000, .i32⟩
  | .hbm, ⟨4, _⟩ => ⟨S160x160, .f32⟩
  | .hbm, ⟨5, _⟩ => ⟨S160, .f32⟩
  | .hbm, ⟨6, _⟩ => ⟨S224x224, .f32⟩
  | .hbm, ⟨7, _⟩ => ⟨S224, .f32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x64, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x64, .f32⟩
  | .hbm, ⟨26, _⟩ => ⟨S160x64, .f32⟩
  | .hbm, ⟨27, _⟩ => ⟨S64x160, .f32⟩
  | .hbm, ⟨28, _⟩ => ⟨S160x64, .f32⟩
  | .hbm, ⟨29, _⟩ => ⟨S64x160, .f32⟩
  | .hbm, ⟨30, _⟩ => ⟨S160x32, .f32⟩
  | .hbm, ⟨31, _⟩ => ⟨S32x160, .f32⟩
  | .hbm, ⟨32, _⟩ => ⟨S1x160, .f32⟩
  | .hbm, ⟨33, _⟩ => ⟨S500000x160, .f32⟩
  | .hbm, ⟨34, _⟩ => ⟨S_, .f32⟩
  | .hbm, ⟨35, _⟩ => ⟨S50000x160, .f32⟩
  | .hbm, ⟨36, _⟩ => ⟨S500000x1, .i32⟩
  | .hbm, ⟨37, _⟩ => ⟨S50000x160, .f32⟩
  | .hbm, ⟨38, _⟩ => ⟨S224x160, .f32⟩
  | .hbm, ⟨39, _⟩ => ⟨S160x224, .f32⟩
  | .hbm, ⟨40, _⟩ => ⟨S224x64, .f32⟩
  | .hbm, ⟨41, _⟩ => ⟨S64x224, .f32⟩
  | .hbm, ⟨42, _⟩ => ⟨S1x224, .f32⟩
  | .hbm, ⟨43, _⟩ => ⟨S50000x224, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x32, .f32⟩
  | .local _ .vmem, ⟨5, _⟩ => ⟨S2000x32, .f32⟩
  | .local _ .vmem, ⟨6, _⟩ => ⟨S64x160, .f32⟩
  | .local _ .vmem, ⟨7, _⟩ => ⟨S64x160, .f32⟩
  | .local _ .vmem, ⟨8, _⟩ => ⟨S32x160, .f32⟩
  | .local _ .vmem, ⟨9, _⟩ => ⟨S1x160, .f32⟩
  | .local _ .vmem, ⟨10, _⟩ => ⟨S2000x160, .f32⟩
  | .local _ .vmem, ⟨11, _⟩ => ⟨S2000x160, .f32⟩
  | .local _ .vmem, ⟨12, _⟩ => ⟨S2000x160, .f32⟩
  | .local _ .vmem, ⟨13, _⟩ => ⟨S2000x160, .f32⟩
  | .local _ .vmem, ⟨14, _⟩ => ⟨S2000x64, .f32⟩
  | .local _ .vmem, ⟨15, _⟩ => ⟨S2000x64, .f32⟩
  | .local _ .vmem, ⟨16, _⟩ => ⟨S160x224, .f32⟩
  | .local _ .vmem, ⟨17, _⟩ => ⟨S64x224, .f32⟩
  | .local _ .vmem, ⟨18, _⟩ => ⟨S1x224, .f32⟩
  | .local _ .vmem, ⟨19, _⟩ => ⟨S2000x224, .f32⟩
  | .local _ .vmem, ⟨20, _⟩ => ⟨S2000x224, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x160 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S160x224 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x224 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x224 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x224 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S160x160_S160x64_0_0 : S160x160.Slices ![0, 0] S160x64
  transposes_S160x64_S64x160_1_0 : S160x64.Transposes [1, 0] S64x160
  slices_S160x160_S160x64_0_64 : S160x160.Slices ![0, 64] S160x64
  slices_S160x160_S160x32_0_128 : S160x160.Slices ![0, 128] S160x32
  transposes_S160x32_S32x160_1_0 : S160x32.Transposes [1, 0] S32x160
  shapeCasts_S160_S1x160 : S160.ShapeCasts S1x160
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S2000x32_S2000x32_0_0 : ∀ a, (![0, 0] : Fin 2 → Nat) a + S2000x32.size a ≤ S2000x32.size a
  h_S2000x32 : 0 < S2000x32.numel
  inb_S64x160_S64x160_0_0 : ∀ a, (![0, 0] : Fin 2 → Nat) a + S64x160.size a ≤ S64x160.size a
  h_S64x160 : 0 < S64x160.numel
  shapeCasts_S64x160_S64x160 : S64x160.ShapeCasts S64x160
  inb_S32x160_S32x160_0_0 : ∀ a, (![0, 0] : Fin 2 → Nat) a + S32x160.size a ≤ S32x160.size a
  h_S32x160 : 0 < S32x160.numel
  shapeCasts_S32x160_S32x160 : S32x160.ShapeCasts S32x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S2000x160 : S1x160.Broadcasts S2000x160
  inb_S2000x160_S2000x160_0_0 : ∀ a, (![0, 0] : Fin 2 → Nat) a + S2000x160.size a ≤ S2000x160.size a
  h_S2000x160 : 0 < S2000x160.numel
  bcast_S_S50000x160 : S_.BroadcastsInDim S50000x160 (![] : Fin 0 → Fin S50000x160.rank)
  slices_S224x224_S224x160_0_0 : S224x224.Slices ![0, 0] S224x160
  transposes_S224x160_S160x224_1_0 : S224x160.Transposes [1, 0] S160x224
  slices_S224x224_S224x64_0_160 : S224x224.Slices ![0, 160] S224x64
  transposes_S224x64_S64x224_1_0 : S224x64.Transposes [1, 0] S64x224
  shapeCasts_S224_S1x224 : S224.ShapeCasts S1x224
  shapeCasts_S2000x160_S2000x160 : S2000x160.ShapeCasts S2000x160
  inb_S160x224_S160x224_0_0 : ∀ a, (![0, 0] : Fin 2 → Nat) a + S160x224.size a ≤ S160x224.size a
  h_S160x224 : 0 < S160x224.numel
  shapeCasts_S160x224_S160x224 : S160x224.ShapeCasts S160x224
  inb_S64x224_S64x224_0_0 : ∀ a, (![0, 0] : Fin 2 → Nat) a + S64x224.size a ≤ S64x224.size a
  h_S64x224 : 0 < S64x224.numel
  shapeCasts_S64x224_S64x224 : S64x224.ShapeCasts S64x224
  inb_S1x224_S1x224_0_0 : ∀ a, (![0, 0] : Fin 2 → Nat) a + S1x224.size a ≤ S1x224.size a
  h_S1x224 : 0 < S1x224.numel
  shapeCasts_S1x224_S1x224 : S1x224.ShapeCasts S1x224
  broadcasts_S1x224_S2000x224 : S1x224.Broadcasts S2000x224
  inb_S2000x224_S2000x224_0_0 : ∀ a, (![0, 0] : Fin 2 → Nat) a + S2000x224.size a ≤ S2000x224.size a
  h_S2000x224 : 0 < S2000x224.numel
  gather_S50000x64_S500000x1_S500000x64_1_0_n_n_0_1_164_wf : GatherDims.WF S50000x64 S500000x1 S500000x64 [1] [0] [] [0] [] 1 ![1, 64]
  dot_S2000x64_S64x160_S2000x160_1_0_0_1_n_n_wf : DotDims.WF S2000x64 S64x160 S2000x160 [1] [0] [0] [1] [] []
  dot_S2000x32_S32x160_S2000x160_1_0_0_1_n_n_wf : DotDims.WF S2000x32 S32x160 S2000x160 [1] [0] [0] [1] [] []
  scatter_S50000x160_S500000x1_S500000x160_1_0_0_1_wf : ScatterDims.WF S50000x160 S500000x1 S500000x160 [1] [0] [0] 1
  dot_S2000x160_S160x224_S2000x224_1_0_0_1_n_n_wf : DotDims.WF S2000x160 S160x224 S2000x224 [1] [0] [0] [1] [] []
  dot_S2000x64_S64x224_S2000x224_1_0_0_1_n_n_wf : DotDims.WF S2000x64 S64x224 S2000x224 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S500000x64.size a
  hwx0_0 : ∀ i : grid0.Coords, EltTy.bits .f32 = 32 ∨ (Rect.block (s := S500000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S500000x64.size a
  hwx0_1 : ∀ i : grid0.Coords, EltTy.bits .f32 = 32 ∨ (Rect.block (s := S500000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S500000x32.size a
  hwx0_2 : ∀ i : grid0.Coords, EltTy.bits .f32 = 32 ∨ (Rect.block (s := S500000x32) S2000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x160.size a ≤ S64x160.size a
  hwx0_3 : ∀ i : grid0.Coords, EltTy.bits .f32 = 32 ∨ (Rect.block (s := S64x160) S64x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x160.size a ≤ S64x160.size a
  hwx0_4 : ∀ i : grid0.Coords, EltTy.bits .f32 = 32 ∨ (Rect.block (s := S64x160) S64x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x160.size a ≤ S32x160.size a
  hwx0_5 : ∀ i : grid0.Coords, EltTy.bits .f32 = 32 ∨ (Rect.block (s := S32x160) S32x160.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x160.size a ≤ S1x160.size a
  hwx0_6 : ∀ i : grid0.Coords, EltTy.bits .f32 = 32 ∨ (Rect.block (s := S1x160) S1x160.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x160.size a ≤ S500000x160.size a
  hwx0_7 : ∀ i : grid0.Coords, EltTy.bits .f32 = 32 ∨ (Rect.block (s := S500000x160) S2000x160.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x160.size a ≤ S50000x160.size a
  hwx1_0 : ∀ i : grid1.Coords, EltTy.bits .f32 = 32 ∨ (Rect.block (s := S50000x160) S2000x160.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S160x224.size a ≤ S160x224.size a
  hwx1_2 : ∀ i : grid1.Coords, EltTy.bits .f32 = 32 ∨ (Rect.block (s := S160x224) S160x224.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x224.size a ≤ S64x224.size a
  hwx1_3 : ∀ i : grid1.Coords, EltTy.bits .f32 = 32 ∨ (Rect.block (s := S64x224) S64x224.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x224.size a ≤ S1x224.size a
  hwx1_4 : ∀ i : grid1.Coords, EltTy.bits .f32 = 32 ∨ (Rect.block (s := S1x224) S1x224.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x224.size a ≤ S50000x224.size a
  hwx1_5 : ∀ i : grid1.Coords, EltTy.bits .f32 = 32 ∨ (Rect.block (s := S50000x224) S2000x224.size (cc1_transform_5 i) (hinb1_5 i)).WholeWords (EltTy.packing .f32)

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S2000x64_S64x160_S2000x160_1_0_0_1_n_n : DotDims S2000x64 S64x160 S2000x160 where
  lhsContracting := [1]
  rhsContracting := [0]
  lhsNonContracting := [0]
  rhsNonContracting := [1]
  lhsBatch := []
  rhsBatch := []
  wf := dot_S2000x64_S64x160_S2000x160_1_0_0_1_n_n_wf
def dot_S2000x32_S32x160_S2000x160_1_0_0_1_n_n : DotDims S2000x32 S32x160 S2000x160 where
  lhsContracting := [1]
  rhsContracting := [0]
  lhsNonContracting := [0]
  rhsNonContracting := [1]
  lhsBatch := []
  rhsBatch := []
  wf := dot_S2000x32_S32x160_S2000x160_1_0_0_1_n_n_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def dot_S2000x160_S160x224_S2000x224_1_0_0_1_n_n : DotDims S2000x160 S160x224 S2000x224 where
  lhsContracting := [1]
  rhsContracting := [0]
  lhsNonContracting := [0]
  rhsNonContracting := [1]
  lhsBatch := []
  rhsBatch := []
  wf := dot_S2000x160_S160x224_S2000x224_1_0_0_1_n_n_wf
def dot_S2000x64_S64x224_S2000x224_1_0_0_1_n_n : DotDims S2000x64 S64x224 S2000x224 where
  lhsContracting := [1]
  rhsContracting := [0]
  lhsNonContracting := [0]
  rhsNonContracting := [1]
  lhsBatch := []
  rhsBatch := []
  wf := dot_S2000x64_S64x224_S2000x224_1_0_0_1_n_n_wf

abbrev win0_0 : Pipeline.Window sig grid0 :=
  Pipeline.Window.ofSpec (Memref.whole main_v6) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S64x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S32x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S2000x160.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24) S2000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S160x224.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S64x224.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x224.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x224.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S500000x32 : Shape := ⟨2, ![500000, 32]⟩
abbrev S500000 : Shape := ⟨1, ![500000]⟩
abbrev S160x160 : Shape := ⟨2, ![160, 160]⟩
abbrev S160 : Shape := ⟨1, ![160]⟩
abbrev S224x224 : Shape := ⟨2, ![224, 224]⟩
abbrev S224 : Shape := ⟨1, ![224]⟩
abbrev S_ : Shape := ⟨0, ![]⟩
abbrev S500000x1 : Shape := ⟨2, ![500000, 1]⟩
abbrev S500000x64 : Shape := ⟨2, ![500000, 64]⟩
abbrev S500000x160 : Shape := ⟨2, ![500000, 160]⟩
abbrev S1x160 : Shape := ⟨2, ![1, 160]⟩
abbrev S50000x160 : Shape := ⟨2, ![50000, 160]⟩
abbrev S50000x224 : Shape := ⟨2, ![50000, 224]⟩
abbrev S1x224 : Shape := ⟨2, ![1, 224]⟩

abbrev nBuf : Space → Nat
  | .hbm => 58
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S500000x32, .f32⟩
  | .hbm, ⟨2, _⟩ => ⟨S500000, .i32⟩
  | .hbm, ⟨3, _⟩ => ⟨S500000, .i32⟩
  | .hbm, ⟨4, _⟩ => ⟨S160x160, .f32⟩
  | .hbm, ⟨5, _⟩ => ⟨S160, .f32⟩
  | .hbm, ⟨6, _⟩ => ⟨S224x224, .f32⟩
  | .hbm, ⟨7, _⟩ => ⟨S224, .f32⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x64, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x64, .f32⟩
  | .hbm, ⟨26, _⟩ => ⟨S500000x160, .f32⟩
  | .hbm, ⟨27, _⟩ => ⟨S160x160, .f32⟩
  | .hbm, ⟨28, _⟩ => ⟨S500000x160, .f32⟩
  | .hbm, ⟨29, _⟩ => ⟨S1x160, .f32⟩
  | .hbm, ⟨30, _⟩ => ⟨S500000x160, .f32⟩
  | .hbm, ⟨31, _⟩ => ⟨S500000x160, .f32⟩
  | .hbm, ⟨32, _⟩ => ⟨S_, .f32⟩
  | .hbm, ⟨33, _⟩ => ⟨S_, .f32⟩
  | .hbm, ⟨34, _⟩ => ⟨S500000x160, .f32⟩
  | .hbm, ⟨35, _⟩ => ⟨S500000x160, .i1⟩
  | .hbm, ⟨36, _⟩ => ⟨S_, .f32⟩
  | .hbm, ⟨37, _⟩ => ⟨S500000x160, .f32⟩
  | .hbm, ⟨38, _⟩ => ⟨S500000x160, .f32⟩
  | .hbm, ⟨39, _⟩ => ⟨S500000x160, .f32⟩
  | .hbm, ⟨40, _⟩ => ⟨S_, .f32⟩
  | .hbm, ⟨41, _⟩ => ⟨S50000x160, .f32⟩
  | .hbm, ⟨42, _⟩ => ⟨S500000x1, .i32⟩
  | .hbm, ⟨43, _⟩ => ⟨S50000x160, .f32⟩
  | .hbm, ⟨44, _⟩ => ⟨S50000x224, .f32⟩
  | .hbm, ⟨45, _⟩ => ⟨S224x224, .f32⟩
  | .hbm, ⟨46, _⟩ => ⟨S50000x224, .f32⟩
  | .hbm, ⟨47, _⟩ => ⟨S1x224, .f32⟩
  | .hbm, ⟨48, _⟩ => ⟨S50000x224, .f32⟩
  | .hbm, ⟨49, _⟩ => ⟨S50000x224, .f32⟩
  | .hbm, ⟨50, _⟩ => ⟨S_, .f32⟩
  | .hbm, ⟨51, _⟩ => ⟨S_, .f32⟩
  | .hbm, ⟨52, _⟩ => ⟨S50000x224, .f32⟩
  | .hbm, ⟨53, _⟩ => ⟨S50000x224, .i1⟩
  | .hbm, ⟨54, _⟩ => ⟨S_, .f32⟩
  | .hbm, ⟨55, _⟩ => ⟨S50000x224, .f32⟩
  | .hbm, ⟨56, _⟩ => ⟨S50000x224, .f32⟩
  | .hbm, ⟨57, _⟩ => ⟨S50000x224, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v30 : Ref sig .tc := ⟨.hbm, 57, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x32_S500000x160_d1 : Shape.Concatenates [S500000x64, S500000x64, S500000x32] S500000x160 1
  transposes_S160x160_S160x160_1_0 : S160x160.Transposes [1, 0] S160x160
  bcast_S160_S1x160_1 : S160.BroadcastsInDim S1x160 (![1] : Fin 1 → Fin S1x160.rank)
  bcast_S1x160_S500000x160_0_1 : S1x160.BroadcastsInDim S500000x160 (![0, 1] : Fin 2 → Fin S500000x160.rank)
  bcast_S_S500000x160 : S_.BroadcastsInDim S500000x160 (![] : Fin 0 → Fin S500000x160.rank)
  bcast_S_S50000x160 : S_.BroadcastsInDim S50000x160 (![] : Fin 0 → Fin S50000x160.rank)
  concatenates_S50000x160_S50000x64_S50000x224_d1 : Shape.Concatenates [S50000x160, S50000x64] S50000x224 1
  transposes_S224x224_S224x224_1_0 : S224x224.Transposes [1, 0] S224x224
  bcast_S224_S1x224_1 : S224.BroadcastsInDim S1x224 (![1] : Fin 1 → Fin S1x224.rank)
  bcast_S1x224_S50000x224_0_1 : S1x224.BroadcastsInDim S50000x224 (![0, 1] : Fin 2 → Fin S50000x224.rank)
  bcast_S_S50000x224 : S_.BroadcastsInDim S50000x224 (![] : Fin 0 → Fin S50000x224.rank)
  gather_S50000x64_S500000x1_S500000x64_1_0_n_n_0_1_164_wf : GatherDims.WF S50000x64 S500000x1 S500000x64 [1] [0] [] [0] [] 1 ![1, 64]
  dot_S500000x160_S160x160_S500000x160_1_0_0_1_n_n_wf : DotDims.WF S500000x160 S160x160 S500000x160 [1] [0] [0] [1] [] []
  scatter_S50000x160_S500000x1_S500000x160_1_0_0_1_wf : ScatterDims.WF S50000x160 S500000x1 S500000x160 [1] [0] [0] 1
  dot_S50000x224_S224x224_S50000x224_1_0_0_1_n_n_wf : DotDims.WF S50000x224 S224x224 S50000x224 [1] [0] [0] [1] [] []

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x160_S160x160_S500000x160_1_0_0_1_n_n : DotDims S500000x160 S160x160 S500000x160 where
  lhsContracting := [1]
  rhsContracting := [0]
  lhsNonContracting := [0]
  rhsNonContracting := [1]
  lhsBatch := []
  rhsBatch := []
  wf := dot_S500000x160_S160x160_S500000x160_1_0_0_1_n_n_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def dot_S50000x224_S224x224_S50000x224_1_0_0_1_n_n : DotDims S50000x224 S224x224 S50000x224 where
  lhsContracting := [1]
  rhsContracting := [0]
  lhsNonContracting := [0]
  rhsNonContracting := [1]
  lhsBatch := []
  rhsBatch := []
  wf := dot_S50000x224_S224x224_S50000x224_1_0_0_1_n_n_wf

class Facts : Prop extends Facts₀ where

variable [Facts]
-- ==== Proof.Spec.lean ====
/-
  The two dense layers of a message-passing step, as functions of arrays, index by index, on the extended reals.

  A message for one edge is  leaky(a·Wa + b·Wb + e·We + β)  where a, b are the 64 features of the edge's two end
  nodes, e its own 32 features, Wa, Wb, We the matching columns of the weight and β a bias entry; a node's update is
  leaky(s·Ws + h·Wh + β) with s its 160 summed messages and h its 64 features.  leaky(y) is y when y ≥ 0 and α·y
  otherwise, α the exact value of one fixed f32 pattern.

  The same number is also  leaky((a ‖ b ‖ e)·W + β): a sum over 160 = 64 + 64 + 32 indices taken in three stretches
  (`sum_split160`), and likewise over 224 = 160 + 64 (`sum_split224`).  Only commutativity and associativity of the
  sum are used, so nothing here asks the entries to be finite.

  An output row depends on the same row of the row-indexed inputs only; the functions are therefore stated for any
  number of rows `n`, and a block of rows of the whole array's function is the function of the blocks.
-/
import Idealize.ShloMosaic.PureOps.Ideal
import Idealize.ShloMosaic.Lib.ValueIdx

noncomputable section

namespace Cert.Mpnn

open Idealize.ShloMosaic Idealize.ShloMosaic.ValueIdx
open scoped BigOperators

/-- An `a × b` matrix shape and a length-`a` vector shape. -/
abbrev Mat (a b : Nat) : Shape := ⟨2, ![a, b]⟩
abbrev Vc (a : Nat) : Shape := ⟨1, ![a]⟩

/-- The leaky rectifier: `y` where `y ≥ 0`, the slope times `y` elsewhere. -/
def leaky (y : EReal) : EReal :=
  Scalar.select (FloatOps.cmpf (F := Ideal) (φ := .f32) .oge y (Ideal.ofBits .f32 0x00000000#32)) y
    (Ideal.ofBits .f32 0x3C23D70A#32 * y)

/-- One message entry from its three feature rows, the three weight columns and the bias entry. -/
def msgCore (a b : Fin 64 → EReal) (e : Fin 32 → EReal) (wa wb : Fin 64 → EReal) (we : Fin 32 → EReal) (β : EReal) : EReal :=
  leaky ((((∑ k, a k * wa k) + (∑ k, b k * wb k)) + (∑ k, e k * we k)) + β)

/-- One update entry from its two feature rows, the two weight columns and the bias entry. -/
def updCore (s : Fin 160 → EReal) (h : Fin 64 → EReal) (ws : Fin 160 → EReal) (wh : Fin 64 → EReal) (β : EReal) : EReal :=
  leaky (((∑ k, s k * ws k) + (∑ k, h k * wh k)) + β)

/-- The message layer on `n` rows with the weight given as three matrices stored contraction-first and the bias as a
    one-row matrix. -/
def msgArr (n : Nat) (x0 x1 : (Mat n 64).Idx → EReal) (x2 : (Mat n 32).Idx → EReal) (w0 w1 : (Mat 64 160).Idx → EReal)
    (w2 : (Mat 32 160).Idx → EReal) (b : (Mat 1 160).Idx → EReal) : (Mat n 160).Idx → EReal := fun i =>
  msgCore (fun k => x0 (ix2 (i 0) k)) (fun k => x1 (ix2 (i 0) k)) (fun k => x2 (ix2 (i 0) k))
    (fun k => w0 (ix2 k (i 1))) (fun k => w1 (ix2 k (i 1))) (fun k => w2 (ix2 k (i 1))) (b (ix2 0 (i 1)))

/-- The update layer on `n` rows, the weight as two matrices stored contraction-first, the bias a one-row matrix. -/
def updArr (n : Nat) (s : (Mat n 160).Idx → EReal) (h : (Mat n 64).Idx → EReal) (w0 : (Mat 160 224).Idx → EReal)
    (w1 : (Mat 64 224).Idx → EReal) (b : (Mat 1 224).Idx → EReal) : (Mat n 224).Idx → EReal := fun i =>
  updCore (fun k => s (ix2 (i 0) k)) (fun k => h (ix2 (i 0) k)) (fun k => w0 (ix2 k (i 1))) (fun k => w1 (ix2 k (i 1)))
    (b (ix2 0 (i 1)))

/-- The message layer on `n` rows from the weight as stored, `[out, in]` with the three input stretches side by side,
    and the bias vector. -/
def msgW (n : Nat) (x0 x1 : (Mat n 64).Idx → EReal) (x2 : (Mat n 32).Idx → EReal) (w : (Mat 160 160).Idx → EReal)
    (b : (Vc 160).Idx → EReal) : (Mat n 160).Idx → EReal := fun i =>
  msgCore (fun k => x0 (ix2 (i 0) k)) (fun k => x1 (ix2 (i 0) k)) (fun k => x2 (ix2 (i 0) k))
    (fun k => w (ix2 (i 1) (⟨k.val, by omega⟩ : Fin 160))) (fun k => w (ix2 (i 1) (⟨64 + k.val, by omega⟩ : Fin 160)))
    (fun k => w (ix2 (i 1) (⟨128 + k.val, by omega⟩ : Fin 160))) (b (ix1 (i 1)))

/-- The update layer on `n` rows from the weight as stored, `[out, in]` with the two input stretches side by side, and
    the bias vector. -/
def updW (n : Nat) (s : (Mat n 160).Idx → EReal) (h : (Mat n 64).Idx → EReal) (w : (Mat 224 224).Idx → EReal)
    (b : (Vc 224).Idx → EReal) : (Mat n 224).Idx → EReal := fun i =>
  updCore (fun k => s (ix2 (i 0) k)) (fun k => h (ix2 (i 0) k))
    (fun k => w (ix2 (i 1) (⟨k.val, by omega⟩ : Fin 224))) (fun k => w (ix2 (i 1) (⟨160 + k.val, by omega⟩ : Fin 224)))
    (b (ix1 (i 1)))

/-- A sum over 160 indices taken as 64 + 64 + 32. -/
theorem sum_split160 {M : Type*} [AddCommMonoid M] (f : Fin 160 → M) :
    ∑ k, f k = ((∑ k : Fin 64, f ⟨k.val, by omega⟩) + (∑ k : Fin 64, f ⟨64 + k.val, by omega⟩))
      + ∑ k : Fin 32, f ⟨128 + k.val, by omega⟩ := by
  rw [show (∑ k, f k) = ∑ k : Fin (64 + 64 + 32), f k from rfl, Fin.sum_univ_add, Fin.sum_univ_add]
  rfl

/-- A sum over 224 indices taken as 160 + 64. -/
theorem sum_split224 {M : Type*} [AddCommMonoid M] (f : Fin 224 → M) :
    ∑ k, f k = (∑ k : Fin 160, f ⟨k.val, by omega⟩) + ∑ k : Fin 64, f ⟨160 + k.val, by omega⟩ := by
  rw [show (∑ k, f k) = ∑ k : Fin (160 + 64), f k from rfl, Fin.sum_univ_add]
  rfl

end Cert.Mpnn

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.KernelPay.lean ====
/-
  What one grid point of each kernel stores, as the layer function of the blocks it loaded.

  The message kernel's stored value is  leaky(x0·w0 + x1·w1 + x2·w2 + b)  on its 2000 rows: three matrix products into
  zero accumulators (a change of float format is the identity on the extended reals), added left to right, plus the
  bias row broadcast down the rows, through the leaky rectifier.  The update kernel's is  leaky(s·w0 + h·w1 + b).
  Both are the layer functions `msgArr 2000`, `updArr 2000` of the loaded blocks.
-/
import proofs.«122019_j87454124081721_1_alg».proof.Proof.Gen.KernelIdeal.Skeleton
import proofs.«122019_j87454124081721_1_alg».proof.Proof.Spec
import proofs.«122019_j87454124081721_1_alg».proof.Proof.LibPlainDot
import Idealize.ShloMosaic.Lib.Pipeline.Value
import Idealize.ShloMosaic.Lib.ValueLayout

noncomputable section

namespace Cert.KernelIdeal.KerPay

open Idealize.ShloMosaic Idealize.ShloMosaic.ValueIdx Cert.KernelIdeal Cert.KernelIdeal.Gen Cert.Mpnn Cert.Lib.PlainDot

/-- A product of a 2000-row block with a 64-row weight into zeros is the plain product (the format change and the
    same-shape casts are identities). -/
theorem mm_64_160 (x : Vec Ideal S2000x64 .f32) (w : Vec Ideal S64x160 .f32) :
    matmul (F := Ideal) dot_S2000x64_S64x160_S2000x160_1_0_0_1_n_n none
      (truncf .bf16 (shapeCast S2000x64 x shapeCasts_S2000x64_S2000x64) bitsLt_bf16_f32)
      (truncf .bf16 (shapeCast S64x160 w shapeCasts_S64x160_S64x160) bitsLt_bf16_f32)
      (constant S2000x160 .f32 0x00000000#32) = mm x w := by
  rw [shapeCast_self, shapeCast_self]
  exact matmul_zero (M := 2000) (K := 64) (N := 160) none _ _

theorem mm_32_160 (x : Vec Ideal S2000x32 .f32) (w : Vec Ideal S32x160 .f32) :
    matmul (F := Ideal) dot_S2000x32_S32x160_S2000x160_1_0_0_1_n_n none
      (truncf .bf16 x bitsLt_bf16_f32)
      (truncf .bf16 (shapeCast S32x160 w shapeCasts_S32x160_S32x160) bitsLt_bf16_f32)
      (constant S2000x160 .f32 0x00000000#32) = mm x w := by
  rw [shapeCast_self]
  exact matmul_zero (M := 2000) (K := 32) (N := 160) none _ _

theorem mm_160_224 (x : Vec Ideal S2000x160 .f32) (w : Vec Ideal S160x224 .f32) :
    matmul (F := Ideal) dot_S2000x160_S160x224_S2000x224_1_0_0_1_n_n none
      (truncf .bf16 (shapeCast S2000x160 x shapeCasts_S2000x160_S2000x160) bitsLt_bf16_f32)
      (truncf .bf16 (shapeCast S160x224 w shapeCasts_S160x224_S160x224) bitsLt_bf16_f32)
      (constant S2000x224 .f32 0x00000000#32) = mm x w := by
  rw [shapeCast_self, shapeCast_self]
  exact matmul_zero (M := 2000) (K := 160) (N := 224) none _ _

theorem mm_64_224 (x : Vec Ideal S2000x64 .f32) (w : Vec Ideal S64x224 .f32) :
    matmul (F := Ideal) dot_S2000x64_S64x224_S2000x224_1_0_0_1_n_n none
      (truncf .bf16 x bitsLt_bf16_f32)
      (truncf .bf16 (shapeCast S64x224 w shapeCasts_S64x224_S64x224) bitsLt_bf16_f32)
      (constant S2000x224 .f32 0x00000000#32) = mm x w := by
  rw [shapeCast_self]
  exact matmul_zero (M := 2000) (K := 64) (N := 224) none _ _

/-- The bias row broadcast down 2000 rows reads the row's entry. -/
theorem bias_160 (b : Vec Ideal S1x160 .f32) (p : Fin 2000) (q : Fin 160) :
    broadcastTo S2000x160 (shapeCast S1x160 b shapeCasts_S1x160_S1x160) broadcasts_S1x160_S2000x160 (ix2 p q) = b (ix2 (0 : Fin 1) q) := by
  rw [shapeCast_self]
  exact broadcastTo_1b_ab_apply b _ p q

theorem bias_224 (b : Vec Ideal S1x224 .f32) (p : Fin 2000) (q : Fin 224) :
    broadcastTo S2000x224 (shapeCast S1x224 b shapeCasts_S1x224_S1x224) broadcasts_S1x224_S2000x224 (ix2 p q) = b (ix2 (0 : Fin 1) q) := by
  rw [shapeCast_self]
  exact broadcastTo_1b_ab_apply b _ p q

/-- The message kernel's stored value is the message layer of its loaded blocks. -/
theorem pay0_eq (v0 v3 : Vec Ideal S2000x64 .f32) (v6 : Vec Ideal S2000x32 .f32) (v8 v11 : Vec Ideal S64x160 .f32)
    (v14 : Vec Ideal S32x160 .f32) (v22 : Vec Ideal S1x160 .f32) :
    k0_pay1 v0 v3 v6 v8 v11 v14 v22 = msgArr 2000 v0 v3 v6 v8 v11 v14 v22 := by
  funext i
  obtain ⟨p, q, rfl⟩ : ∃ (p : Fin 2000) (q : Fin 160), i = ix2 p q := ⟨i 0, i 1, eq_ix2 i⟩
  unfold k0_pay1
  rw [mm_64_160 v0 v8, mm_64_160 v3 v11, mm_32_160 v6 v14]
  show leaky (((mm v0 v8 (ix2 p q) + mm v3 v11 (ix2 p q)) + mm v6 v14 (ix2 p q))
    + broadcastTo S2000x160 (shapeCast S1x160 v22 shapeCasts_S1x160_S1x160) broadcasts_S1x160_S2000x160 (ix2 p q)) = _
  rw [bias_160]
  rfl

/-- The update kernel's stored value is the update layer of its loaded blocks. -/
theorem pay1_eq (v0 : Vec Ideal S2000x160 .f32) (v3 : Vec Ideal S2000x64 .f32) (v5 : Vec Ideal S160x224 .f32)
    (v8 : Vec Ideal S64x224 .f32) (v14 : Vec Ideal S1x224 .f32) :
    k1_pay1 v0 v3 v5 v8 v14 = updArr 2000 v0 v3 v5 v8 v14 := by
  funext i
  obtain ⟨p, q, rfl⟩ : ∃ (p : Fin 2000) (q : Fin 224), i = ix2 p q := ⟨i 0, i 1, eq_ix2 i⟩
  unfold k1_pay1
  rw [mm_160_224 v0 v5, mm_64_224 v3 v8]
  show leaky ((mm v0 v5 (ix2 p q) + mm v3 v8 (ix2 p q))
    + broadcastTo S2000x224 (shapeCast S1x224 v14 shapeCasts_S1x224_S1x224) broadcasts_S1x224_S2000x224 (ix2 p q)) = _
  rw [bias_224]
  rfl

end Cert.KernelIdeal.KerPay

end
-- ==== Proof.KernelBlocks0.lean ====
/-
  The message kernel's output array after its launch, as one function of the arrays the launch is entered with.

  Grid point t of 250 stages rows 2000·t … 2000·t + 1999 of the three row-indexed inputs, the whole of the three weight
  matrices and of the bias row, and writes back rows 2000·t … 2000·t + 1999 of the output.  What it writes is the message
  layer of its blocks, and the layer's row r reads row r of the row-indexed inputs only, so the block written is the
  same block of the message layer of the whole arrays.  The 250 blocks tile the 500000 rows (row r lies in block
  r / 2000), hence the array ends as that layer.
-/
import proofs.«122019_j87454124081721_1_alg».proof.Proof.Gen.KernelIdeal.Frame
import proofs.«122019_j87454124081721_1_alg».proof.Proof.KernelPay
import Idealize.ShloMosaic.Lib.Pipeline.Value

set_option maxRecDepth 16384

noncomputable section

namespace Cert.KernelIdeal.KerBlocks

open Idealize.ShloMosaic Idealize.ShloMosaic.TcCoe Idealize.ShloMosaic.ValueIdx Idealize.SL.Sem Cert.KernelIdeal Cert.KernelIdeal.Gen Cert.Mpnn
open Idealize.ShloMosaic.Pipeline (Dat Cfg Window)

/-- Row locality of the message layer: an entry reads one row of each row-indexed input, one column of each weight
    and one bias entry; where those agree, two instances of the layer (on any numbers of rows) agree. -/
theorem msgArr_row {n n' : Nat} (x0 x1 : (Mat n 64).Idx → EReal) (x2 : (Mat n 32).Idx → EReal)
    (w0 w1 : (Mat 64 160).Idx → EReal) (w2 : (Mat 32 160).Idx → EReal) (b : (Mat 1 160).Idx → EReal)
    (x0' x1' : (Mat n' 64).Idx → EReal) (x2' : (Mat n' 32).Idx → EReal)
    (w0' w1' : (Mat 64 160).Idx → EReal) (w2' : (Mat 32 160).Idx → EReal) (b' : (Mat 1 160).Idx → EReal)
    (p : Fin n) (r : Fin n') (q : Fin 160)
    (h0 : ∀ k : Fin 64, x0 (ix2 p k) = x0' (ix2 r k)) (h1 : ∀ k : Fin 64, x1 (ix2 p k) = x1' (ix2 r k))
    (h2 : ∀ k : Fin 32, x2 (ix2 p k) = x2' (ix2 r k))
    (h3 : ∀ k : Fin 64, w0 (ix2 k q) = w0' (ix2 k q)) (h4 : ∀ k : Fin 64, w1 (ix2 k q) = w1' (ix2 k q))
    (h5 : ∀ k : Fin 32, w2 (ix2 k q) = w2' (ix2 k q)) (h6 : b (ix2 0 q) = b' (ix2 0 q)) :
    msgArr n x0 x1 x2 w0 w1 w2 b (ix2 p q) = msgArr n' x0' x1' x2' w0' w1' w2' b' (ix2 r q) := by
  show msgCore (fun k => x0 (ix2 p k)) (fun k => x1 (ix2 p k)) (fun k => x2 (ix2 p k)) (fun k => w0 (ix2 k q))
      (fun k => w1 (ix2 k q)) (fun k => w2 (ix2 k q)) (b (ix2 0 q))
    = msgCore (fun k => x0' (ix2 r k)) (fun k => x1' (ix2 r k)) (fun k => x2' (ix2 r k)) (fun k => w0' (ix2 k q))
      (fun k => w1' (ix2 k q)) (fun k => w2' (ix2 k q)) (b' (ix2 0 q))
  rw [funext h0, funext h1, funext h2, funext h3, funext h4, funext h5, h6]

variable (V : (c : Dev nD) → (b : Ref sig .tc) → Buf (Elt Ideal) ((c : Thread nD τ).loc b))

theorem hz : (![0, 0] : Fin 2 → Nat) = fun _ => 0 := funext fun a => by fin_cases a <;> rfl

/-- The block index maps of the message launch over its grid: the row-indexed windows and the output sit at block row
    `t`, column block 0; the weights and the bias at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's block at point `t` is rows 2000·t … of the first gathered array. -/
theorem blk0_0 (c : Dev nD) (t : Fin cfg0.N) (p : Fin 2000) (k : Fin 64) (r : Fin 500000) (hr : r.val = t.val * 2000 + p.val) :
    (iblk0 V c 0 t : Vec Ideal S2000x64 .f32) (ix2 p k) = (V c main_v6 : S500000x64.Idx → EReal) (ix2 r k) := by
  obtain ⟨e00, e01, -⟩ := idx_facts0 t
  show (V c main_v6 : S500000x64.Idx → EReal) (((cfg0.win 0).blk t).view.emb (ix2 p k)) = _
  refine congrArg (V c main_v6 : S500000x64.Idx → EReal) (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- Window 1's block at point `t` is rows 2000·t … of the second gathered array. -/
theorem blk0_1 (c : Dev nD) (t : Fin cfg0.N) (p : Fin 2000) (k : Fin 64) (r : Fin 500000) (hr : r.val = t.val * 2000 + p.val) :
    (iblk0 V c 1 t : Vec Ideal S2000x64 .f32) (ix2 p k) = (V c main_v13 : S500000x64.Idx → EReal) (ix2 r k) := by
  obtain ⟨-, -, e10, e11, -⟩ := idx_facts0 t
  show (V c main_v13 : S500000x64.Idx → EReal) (((cfg0.win 1).blk t).view.emb (ix2 p k)) = _
  refine congrArg (V c main_v13 : S500000x64.Idx → EReal) (funext fun a => Fin.ext ?_)
  match a with
  | ⟨0, _⟩ => show win0_1.index t (0 : Fin 2) * 2000 + 1 * p.val = r.val; omega
  | ⟨1, _⟩ => show win0_1.index t (1 : Fin 2) * 64 + 1 * k.val = k.val; omega

/-- Window 2's block at point `t` is rows 2000·t … of the edge features. -/
theorem blk0_2 (c : Dev nD) (t : Fin cfg0.N) (p : Fin 2000) (k : Fin 32) (r : Fin 500000) (hr : r.val = t.val * 2000 + p.val) :
    (iblk0 V c 2 t : Vec Ideal S2000x32 .f32) (ix2 p k) = (V c main_arg1 : S500000x32.Idx → EReal) (ix2 r k) := by
  obtain ⟨-, -, -, -, e20, e21, -⟩ := idx_facts0 t
  show (V c main_arg1 : S500000x32.Idx → EReal) (((cfg0.win 2).blk t).view.emb (ix2 p k)) = _
  refine congrArg (V c main_arg1 : S500000x32.Idx → EReal) (funext fun a => Fin.ext ?_)
  match a with
  | ⟨0, _⟩ => show win0_2.index t (0 : Fin 2) * 2000 + 1 * p.val = r.val; omega
  | ⟨1, _⟩ => show win0_2.index t (1 : Fin 2) * 32 + 1 * k.val = k.val; omega

/-- Windows 3, 4, 5, 6 stage the whole of their arrays at every point. -/
theorem blk0_3 (c : Dev nD) (t : Fin cfg0.N) (k : Fin 64) (q : Fin 160) :
    (iblk0 V c 3 t : Vec Ideal S64x160 .f32) (ix2 k q) = (V c main_v15 : S64x160.Idx → EReal) (ix2 k q) := by
  obtain ⟨-, -, -, -, -, -, e30, e31, -⟩ := idx_facts0 t
  show (V c main_v15 : S64x160.Idx → EReal) (((cfg0.win 3).blk t).view.emb (ix2 k q)) = _
  refine congrArg (V c main_v15 : S64x160.Idx → EReal) (funext fun a => Fin.ext ?_)
  match a with
  | ⟨0, _⟩ => show win0_3.index t (0 : Fin 2) * 64 + 1 * k.val = k.val; omega
  | ⟨1, _⟩ => show win0_3.index t (1 : Fin 2) * 160 + 1 * q.val = q.val; omega

theorem blk0_4 (c : Dev nD) (t : Fin cfg0.N) (k : Fin 64) (q : Fin 160) :
    (iblk0 V c 4 t : Vec Ideal S64x160 .f32) (ix2 k q) = (V c main_v17 : S64x160.Idx → EReal) (ix2 k q) := by
  obtain ⟨-, -, -, -, -, -, -, -, e40, e41, -⟩ := idx_facts0 t
  show (V c main_v17 : S64x160.Idx → EReal) (((cfg0.win 4).blk t).view.emb (ix2 k q)) = _
  refine congrArg (V c main_v17 : S64x160.Idx → EReal) (funext fun a => Fin.ext ?_)
  match a with
  | ⟨0, _⟩ => show win0_4.index t (0 : Fin 2) * 64 + 1 * k.val = k.val; omega
  | ⟨1, _⟩ => show win0_4.index t (1 : Fin 2) * 160 + 1 * q.val = q.val; omega

theorem blk0_5 (c : Dev nD) (t : Fin cfg0.N) (k : Fin 32) (q : Fin 160) :
    (iblk0 V c 5 t : Vec Ideal S32x160 .f32) (ix2 k q) = (V c main_v19 : S32x160.Idx → EReal) (ix2 k q) := by
  obtain ⟨-, -, -, -, -, -, -, -, -, -, e50, e51, -⟩ := idx_facts0 t
  show (V c main_v19 : S32x160.Idx → EReal) (((cfg0.win 5).blk t).view.emb (ix2 k q)) = _
  refine congrArg (V c main_v19 : S32x160.Idx → EReal) (funext fun a => Fin.ext ?_)
  match a with
  | ⟨0, _⟩ => show win0_5.index t (0 : Fin 2) * 32 + 1 * k.val = k.val; omega
  | ⟨1, _⟩ => show win0_5.index t (1 : Fin 2) * 160 + 1 * q.val = q.val; omega

theorem blk0_6 (c : Dev nD) (t : Fin cfg0.N) (q : Fin 160) :
    (iblk0 V c 6 t : Vec Ideal S1x160 .f32) (ix2 (0 : Fin 1) q) = (V c main_v20 : S1x160.Idx → EReal) (ix2 (0 : Fin 1) q) := by
  obtain ⟨-, -, -, -, -, -, -, -, -, -, -, -, e60, e61, -⟩ := idx_facts0 t
  show (V c main_v20 : S1x160.Idx → EReal) (((cfg0.win 6).blk t).view.emb (ix2 (0 : Fin 1) q)) = _
  refine congrArg (V c main_v20 : S1x160.Idx → EReal) (funext fun a => Fin.ext ?_)
  match a with
  | ⟨0, _⟩ => show win0_6.index t (0 : Fin 2) * 1 + 1 * 0 = 0; omega
  | ⟨1, _⟩ => show win0_6.index t (1 : Fin 2) * 160 + 1 * q.val = q.val; omega

/-- WHAT POINT `t` WRITES BACK is block `t` of the message layer of the arrays as the launch finds them. -/
theorem flushed0 (c : Dev nD) (t : Fin cfg0.N) :
    (dat0 V c).flushed 7 t = ((cfg0.win 7).blk t).view.read (Elt Ideal)
      (msgArr 500000 (V c main_v6) (V c main_v13) (V c main_arg1) (V c main_v15) (V c main_v17) (V c main_v19) (V c main_v20)) := by
  show (cfg0.win 7).cut (grid0.coords t) ((dat0 V c).after 7 t) = _
  rw [after0_7]
  unfold out0_7
  rw [View.canon_unit_zero hz]
  simp only [View.ld_unit_zero (S := S2000x64) hz, View.ld_unit_zero (S := S2000x32) hz, View.ld_unit_zero (S := S64x160) hz,
    View.ld_unit_zero (S := S32x160) hz, View.ld_unit_zero (S := S1x160) hz]
  rw [KerPay.pay0_eq]
  obtain ⟨-, -, -, -, -, -, -, -, -, -, -, -, -, -, e70, e71⟩ := idx_facts0 t
  have hN : cfg0.N = 250 := N_0
  funext y
  have hy0 : (y 0).val < 2000 := (y 0).isLt
  have hy1 : (y 1).val < 160 := (y 1).isLt
  have ht : t.val < 250 := hN ▸ t.isLt
  have hx : (cfg0.win 7).xinj (grid0.coords t) y = ix2 (⟨(y 0).val, hy0⟩ : Fin 2000) (⟨(y 1).val, hy1⟩ : Fin 160) :=
    funext fun a => Fin.ext (by match a with | ⟨0, _⟩ => rfl | ⟨1, _⟩ => rfl)
  have he : ((cfg0.win 7).blk t).view.emb y
      = ix2 (⟨t.val * 2000 + (y 0).val, by omega⟩ : Fin 500000) (⟨(y 1).val, hy1⟩ : Fin 160) :=
    funext fun a => Fin.ext (by
      match a with
      | ⟨0, _⟩ => show win0_7.index t (0 : Fin 2) * 2000 + 1 * (y 0).val = t.val * 2000 + (y 0).val; omega
      | ⟨1, _⟩ => show win0_7.index t (1 : Fin 2) * 160 + 1 * (y 1).val = (y 1).val; omega)
  show msgArr 2000 (iblk0 V c 0 t) (iblk0 V c 1 t) (iblk0 V c 2 t) (iblk0 V c 3 t) (iblk0 V c 4 t) (iblk0 V c 5 t) (iblk0 V c 6 t)
      ((cfg0.win 7).xinj (grid0.coords t) y)
    = msgArr 500000 (V c main_v6) (V c main_v13) (V c main_arg1) (V c main_v15) (V c main_v17) (V c main_v19) (V c main_v20)
      (((cfg0.win 7).blk t).view.emb y)
  rw [hx, he]
  exact msgArr_row _ _ _ _ _ _ _ _ _ _ _ _ _ _ _ _ _
    (fun k => blk0_0 V c t _ k _ rfl) (fun k => blk0_1 V c t _ k _ rfl) (fun k => blk0_2 V c t _ k _ rfl)
    (fun k => blk0_3 V c t k _) (fun k => blk0_4 V c t k _) (fun k => blk0_5 V c t k _) (blk0_6 V c t _)

/-- An index of the output array is in point `t`'s block iff each coordinate is in the block's range on its axis. -/
theorem mem_blk0 (t : Fin cfg0.N) (i : S500000x160.Idx) :
    i ∈ ((cfg0.win 7).blk t).view.set ↔ ∀ a : Fin 2, win0_7.index t a * S2000x160.size a ≤ (i a).val
      ∧ (i a).val < win0_7.index t a * S2000x160.size a + S2000x160.size a := by
  show i ∈ ((View.whole main_v21).slice (win0_7.rect t)).set ↔ _
  rw [View.set_slice_whole, Rect.mem_set_unit]
  exact Iff.rfl

/-- THE OUTPUT ARRAY after the launch is the message layer of the arrays the launch was entered with. -/
theorem final0 (c : Dev nD) :
    (dat0 V c).arrAt 7 cfg0.N
      = msgArr 500000 (V c main_v6) (V c main_v13) (V c main_arg1) (V c main_v15) (V c main_v17) (V c main_v19) (V c main_v20) :=
  (dat0 V c).arrAt_eq_of_cover 7 _ (fun t _ => flushed0 V c t) fun i => by
    have hN : cfg0.N = 250 := N_0
    have hi0 : (i 0).val < 500000 := (i 0).isLt
    have hi1 : (i 1).val < 160 := (i 1).isLt
    let t : Fin cfg0.N := ⟨(i 0).val / 2000, by rw [hN]; omega⟩
    obtain ⟨-, -, -, -, -, -, -, -, -, -, -, -, -, -, e70, e71⟩ := idx_facts0 t
    have e70' : win0_7.index t (0 : Fin 2) = (i 0).val / 2000 := e70
    refine ⟨t, flush0_7 t, ?_⟩
    rw [mem_blk0]
    intro a
    match a with
    | ⟨0, _⟩ => show win0_7.index t (0 : Fin 2) * 2000 ≤ (i 0).val ∧ (i 0).val < win0_7.index t (0 : Fin 2) * 2000 + 2000; omega
    | ⟨1, _⟩ => show win0_7.index t (1 : Fin 2) * 160 ≤ (i 1).val ∧ (i 1).val < win0_7.index t (1 : Fin 2) * 160 + 160; omega

end Cert.KernelIdeal.KerBlocks

end
-- ==== Proof.KernelBlocks1.lean ====
/-
  The update kernel's output array after its launch, as one function of the arrays the launch is entered with.

  Grid point t of 25 stages rows 2000·t … 2000·t + 1999 of the summed messages and of the node features, the whole of the
  two weight matrices and of the bias row, and writes back rows 2000·t … 2000·t + 1999 of the output.  What it writes is
  the update layer of its blocks, whose row r reads row r of the two row-indexed inputs only, so the block written is
  the same block of the update layer of the whole arrays.  The 25 blocks tile the 50000 rows (row r lies in block
  r / 2000), hence the array ends as that layer.
-/
import proofs.«122019_j87454124081721_1_alg».proof.Proof.Gen.KernelIdeal.Frame
import proofs.«122019_j87454124081721_1_alg».proof.Proof.KernelPay
import Idealize.ShloMosaic.Lib.Pipeline.Value

set_option maxRecDepth 16384

noncomputable section

namespace Cert.KernelIdeal.KerBlocks1

open Idealize.ShloMosaic Idealize.ShloMosaic.TcCoe Idealize.ShloMosaic.ValueIdx Idealize.SL.Sem Cert.KernelIdeal Cert.KernelIdeal.Gen Cert.Mpnn
open Idealize.ShloMosaic.Pipeline (Dat Cfg Window)

/-- Row locality of the update layer: an entry reads one row of each row-indexed input, one column of each weight
    and one bias entry; where those agree, two instances of the layer (on any numbers of rows) agree. -/
theorem updArr_row {n n' : Nat} (s : (Mat n 160).Idx → EReal) (h : (Mat n 64).Idx → EReal)
    (w0 : (Mat 160 224).Idx → EReal) (w1 : (Mat 64 224).Idx → EReal) (b : (Mat 1 224).Idx → EReal)
    (s' : (Mat n' 160).Idx → EReal) (h' : (Mat n' 64).Idx → EReal)
    (w0' : (Mat 160 224).Idx → EReal) (w1' : (Mat 64 224).Idx → EReal) (b' : (Mat 1 224).Idx → EReal)
    (p : Fin n) (r : Fin n') (q : Fin 224)
    (h0 : ∀ k : Fin 160, s (ix2 p k) = s' (ix2 r k)) (h1 : ∀ k : Fin 64, h (ix2 p k) = h' (ix2 r k))
    (h2 : ∀ k : Fin 160, w0 (ix2 k q) = w0' (ix2 k q)) (h3 : ∀ k : Fin 64, w1 (ix2 k q) = w1' (ix2 k q))
    (h4 : b (ix2 0 q) = b' (ix2 0 q)) :
    updArr n s h w0 w1 b (ix2 p q) = updArr n' s' h' w0' w1' b' (ix2 r q) := by
  show updCore (fun k => s (ix2 p k)) (fun k => h (ix2 p k)) (fun k => w0 (ix2 k q)) (fun k => w1 (ix2 k q)) (b (ix2 0 q))
    = updCore (fun k => s' (ix2 r k)) (fun k => h' (ix2 r k)) (fun k => w0' (ix2 k q)) (fun k => w1' (ix2 k q)) (b' (ix2 0 q))
  rw [funext h0, funext h1, funext h2, funext h3, h4]

variable (V : (c : Dev nD) → (b : Ref sig .tc) → Buf (Elt Ideal) ((c : Thread nD τ).loc b))

theorem hz : (![0, 0] : Fin 2 → Nat) = fun _ => 0 := funext fun a => by fin_cases a <;> rfl

/-- The block index maps of the update launch over its grid: the row-indexed windows and the output sit at block row
    `t`, column block 0; the weights and the bias at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows 2000·t … of the summed messages. -/
theorem blk1_0 (c : Dev nD) (t : Fin cfg1.N) (p : Fin 2000) (k : Fin 160) (r : Fin 50000) (hr : r.val = t.val * 2000 + p.val) :
    (iblk1 V c 0 t : Vec Ideal S2000x160 .f32) (ix2 p k) = (V c main_v24 : S50000x160.Idx → EReal) (ix2 r k) := by
  obtain ⟨e00, e01, -⟩ := idx_facts1 t
  show (V c main_v24 : S50000x160.Idx → EReal) (((cfg1.win 0).blk t).view.emb (ix2 p k)) = _
  refine congrArg (V c main_v24 : S50000x160.Idx → EReal) (funext fun a => Fin.ext ?_)
  match a with
  | ⟨0, _⟩ => show win1_0.index t (0 : Fin 2) * 2000 + 1 * p.val = r.val; omega
  | ⟨1, _⟩ => show win1_0.index t (1 : Fin 2) * 160 + 1 * k.val = k.val; omega

/-- Window 1's block at point `t` is rows 2000·t … of the node features. -/
theorem blk1_1 (c : Dev nD) (t : Fin cfg1.N) (p : Fin 2000) (k : Fin 64) (r : Fin 50000) (hr : r.val = t.val * 2000 + p.val) :
    (iblk1 V c 1 t : Vec Ideal S2000x64 .f32) (ix2 p k) = (V c main_arg0 : S50000x64.Idx → EReal) (ix2 r k) := by
  obtain ⟨-, -, e10, e11, -⟩ := idx_facts1 t
  show (V c main_arg0 : S50000x64.Idx → EReal) (((cfg1.win 1).blk t).view.emb (ix2 p k)) = _
  refine congrArg (V c main_arg0 : S50000x64.Idx → EReal) (funext fun a => Fin.ext ?_)
  match a with
  | ⟨0, _⟩ => show win1_1.index t (0 : Fin 2) * 2000 + 1 * p.val = r.val; omega
  | ⟨1, _⟩ => show win1_1.index t (1 : Fin 2) * 64 + 1 * k.val = k.val; omega

/-- Windows 2, 3, 4 stage the whole of their arrays at every point. -/
theorem blk1_2 (c : Dev nD) (t : Fin cfg1.N) (k : Fin 160) (q : Fin 224) :
    (iblk1 V c 2 t : Vec Ideal S160x224 .f32) (ix2 k q) = (V c main_v26 : S160x224.Idx → EReal) (ix2 k q) := by
  obtain ⟨-, -, -, -, e20, e21, -⟩ := idx_facts1 t
  show (V c main_v26 : S160x224.Idx → EReal) (((cfg1.win 2).blk t).view.emb (ix2 k q)) = _
  refine congrArg (V c main_v26 : S160x224.Idx → EReal) (funext fun a => Fin.ext ?_)
  match a with
  | ⟨0, _⟩ => show win1_2.index t (0 : Fin 2) * 160 + 1 * k.val = k.val; omega
  | ⟨1, _⟩ => show win1_2.index t (1 : Fin 2) * 224 + 1 * q.val = q.val; omega

theorem blk1_3 (c : Dev nD) (t : Fin cfg1.N) (k : Fin 64) (q : Fin 224) :
    (iblk1 V c 3 t : Vec Ideal S64x224 .f32) (ix2 k q) = (V c main_v28 : S64x224.Idx → EReal) (ix2 k q) := by
  obtain ⟨-, -, -, -, -, -, e30, e31, -⟩ := idx_facts1 t
  show (V c main_v28 : S64x224.Idx → EReal) (((cfg1.win 3).blk t).view.emb (ix2 k q)) = _
  refine congrArg (V c main_v28 : S64x224.Idx → EReal) (funext fun a => Fin.ext ?_)
  match a with
  | ⟨0, _⟩ => show win1_3.index t (0 : Fin 2) * 64 + 1 * k.val = k.val; omega
  | ⟨1, _⟩ => show win1_3.index t (1 : Fin 2) * 224 + 1 * q.val = q.val; omega

theorem blk1_4 (c : Dev nD) (t : Fin cfg1.N) (q : Fin 224) :
    (iblk1 V c 4 t : Vec Ideal S1x224 .f32) (ix2 (0 : Fin 1) q) = (V c main_v29 : S1x224.Idx → EReal) (ix2 (0 : Fin 1) q) := by
  obtain ⟨-, -, -, -, -, -, -, -, e40, e41, -⟩ := idx_facts1 t
  show (V c main_v29 : S1x224.Idx → EReal) (((cfg1.win 4).blk t).view.emb (ix2 (0 : Fin 1) q)) = _
  refine congrArg (V c main_v29 : S1x224.Idx → EReal) (funext fun a => Fin.ext ?_)
  match a with
  | ⟨0, _⟩ => show win1_4.index t (0 : Fin 2) * 1 + 1 * 0 = 0; omega
  | ⟨1, _⟩ => show win1_4.index t (1 : Fin 2) * 224 + 1 * q.val = q.val; omega

/-- WHAT POINT `t` WRITES BACK is block `t` of the update layer of the arrays as the launch finds them. -/
theorem flushed1 (c : Dev nD) (t : Fin cfg1.N) :
    (dat1 V c).flushed 5 t = ((cfg1.win 5).blk t).view.read (Elt Ideal)
      (updArr 50000 (V c main_v24) (V c main_arg0) (V c main_v26) (V c main_v28) (V c main_v29)) := by
  show (cfg1.win 5).cut (grid1.coords t) ((dat1 V c).after 5 t) = _
  rw [after1_5]
  unfold out1_5
  rw [View.canon_unit_zero hz]
  simp only [View.ld_unit_zero (S := S2000x160) hz, View.ld_unit_zero (S := S2000x64) hz, View.ld_unit_zero (S := S160x224) hz,
    View.ld_unit_zero (S := S64x224) hz, View.ld_unit_zero (S := S1x224) hz]
  rw [KerPay.pay1_eq]
  obtain ⟨-, -, -, -, -, -, -, -, -, -, e50, e51⟩ := idx_facts1 t
  have hN : cfg1.N = 25 := N_1
  funext y
  have hy0 : (y 0).val < 2000 := (y 0).isLt
  have hy1 : (y 1).val < 224 := (y 1).isLt
  have ht : t.val < 25 := hN ▸ t.isLt
  have hx : (cfg1.win 5).xinj (grid1.coords t) y = ix2 (⟨(y 0).val, hy0⟩ : Fin 2000) (⟨(y 1).val, hy1⟩ : Fin 224) :=
    funext fun a => Fin.ext (by match a with | ⟨0, _⟩ => rfl | ⟨1, _⟩ => rfl)
  have he : ((cfg1.win 5).blk t).view.emb y
      = ix2 (⟨t.val * 2000 + (y 0).val, by omega⟩ : Fin 50000) (⟨(y 1).val, hy1⟩ : Fin 224) :=
    funext fun a => Fin.ext (by
      match a with
      | ⟨0, _⟩ => show win1_5.index t (0 : Fin 2) * 2000 + 1 * (y 0).val = t.val * 2000 + (y 0).val; omega
      | ⟨1, _⟩ => show win1_5.index t (1 : Fin 2) * 224 + 1 * (y 1).val = (y 1).val; omega)
  show updArr 2000 (iblk1 V c 0 t) (iblk1 V c 1 t) (iblk1 V c 2 t) (iblk1 V c 3 t) (iblk1 V c 4 t)
      ((cfg1.win 5).xinj (grid1.coords t) y)
    = updArr 50000 (V c main_v24) (V c main_arg0) (V c main_v26) (V c main_v28) (V c main_v29)
      (((cfg1.win 5).blk t).view.emb y)
  rw [hx, he]
  exact updArr_row _ _ _ _ _ _ _ _ _ _ _ _ _
    (fun k => blk1_0 V c t _ k _ rfl) (fun k => blk1_1 V c t _ k _ rfl)
    (fun k => blk1_2 V c t k _) (fun k => blk1_3 V c t k _) (blk1_4 V c t _)

/-- An index of the output array is in point `t`'s block iff each coordinate is in the block's range on its axis. -/
theorem mem_blk1 (t : Fin cfg1.N) (i : S50000x224.Idx) :
    i ∈ ((cfg1.win 5).blk t).view.set ↔ ∀ a : Fin 2, win1_5.index t a * S2000x224.size a ≤ (i a).val
      ∧ (i a).val < win1_5.index t a * S2000x224.size a + S2000x224.size a := by
  show i ∈ ((View.whole main_v30).slice (win1_5.rect t)).set ↔ _
  rw [View.set_slice_whole, Rect.mem_set_unit]
  exact Iff.rfl

/-- THE OUTPUT ARRAY after the launch is the update layer of the arrays the launch was entered with. -/
theorem final1 (c : Dev nD) :
    (dat1 V c).arrAt 5 cfg1.N
      = updArr 50000 (V c main_v24) (V c main_arg0) (V c main_v26) (V c main_v28) (V c main_v29) :=
  (dat1 V c).arrAt_eq_of_cover 5 _ (fun t _ => flushed1 V c t) fun i => by
    have hN : cfg1.N = 25 := N_1
    have hi0 : (i 0).val < 50000 := (i 0).isLt
    have hi1 : (i 1).val < 224 := (i 1).isLt
    let t : Fin cfg1.N := ⟨(i 0).val / 2000, by rw [hN]; omega⟩
    obtain ⟨-, -, -, -, -, -, -, -, -, -, e50, e51⟩ := idx_facts1 t
    have e50' : win1_5.index t (0 : Fin 2) = (i 0).val / 2000 := e50
    refine ⟨t, flush1_5 t, ?_⟩
    rw [mem_blk1]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 224 ≤ (i 1).val ∧ (i 1).val < win1_5.index t (1 : Fin 2) * 224 + 224; omega

end Cert.KernelIdeal.KerBlocks1

end
-- ==== Proof.KernelTerm.lean ====
/-
  The host-side values the two kernel launches are entered with, as pure terms of the program's argument arrays.

  Before the first launch the program gathers the rows h_n[src] and h_n[dst] (a negative index wrapped once), cuts the
  message weight W_msg [160, 160] into its three column stretches 0–63, 64–127, 128–159 and transposes each (so that the
  contraction index comes first), and recasts the bias [160] as a one-row matrix.  Between the launches it sums the
  messages at their destination node (scatter-add into zeros), cuts the update weight W_hid [224, 224] into the column
  stretches 0–159 and 160–223, transposes each, and recasts the bias [224] as a one-row matrix.
-/
import proofs.«122019_j87454124081721_1_alg».proof.KernelIdeal
import Idealize.ShloMosaic.PureOps.Ideal

noncomputable section

namespace Cert.KernelIdeal.KerTerm

open Idealize.ShloMosaic Cert.KernelIdeal
open Cert.KernelIdeal.Facts₀ Cert.KernelIdeal.Facts

variable [Cert.KernelIdeal.Facts]

/-- An index vector with each negative entry wrapped once (plus 50000), as a column. -/
def wrapIdx (a : IVec S500000 32) : IVec S500000x1 32 :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 50000#32))) a)

/-- The rows of the node table picked by an index vector. -/
def rows (a0 : FVec Ideal S50000x64 .f32) (a : IVec S500000 32) : FVec Ideal S500000x64 .f32 :=
  Host.gather gather_S50000x64_S500000x1_S500000x64_1_0_n_n_0_1_164 a0 (wrapIdx a)

/-- Columns 0–63 of the message weight, transposed. -/
def wmsg0 (w : FVec Ideal S160x160 .f32) : FVec Ideal S64x160 .f32 :=
  transpose S64x160 [1, 0] (extractStridedSlice S160x64 ![0, 0] w slices_S160x160_S160x64_0_0) transposes_S160x64_S64x160_1_0
/-- Columns 64–127 of the message weight, transposed. -/
def wmsg1 (w : FVec Ideal S160x160 .f32) : FVec Ideal S64x160 .f32 :=
  transpose S64x160 [1, 0] (extractStridedSlice S160x64 ![0, 64] w slices_S160x160_S160x64_0_64) transposes_S160x64_S64x160_1_0
/-- Columns 128–159 of the message weight, transposed. -/
def wmsg2 (w : FVec Ideal S160x160 .f32) : FVec Ideal S32x160 .f32 :=
  transpose S32x160 [1, 0] (extractStridedSlice S160x32 ![0, 128] w slices_S160x160_S160x32_0_128) transposes_S160x32_S32x160_1_0
/-- The message bias as a one-row matrix. -/
def bmsg (b : FVec Ideal S160 .f32) : FVec Ideal S1x160 .f32 := shapeCast S1x160 b shapeCasts_S160_S1x160

/-- The messages summed at their destination node. -/
def segsum (d : IVec S500000 32) (u : FVec Ideal S500000x160 .f32) : FVec Ideal S50000x160 .f32 :=
  Host.scatterAdd scatter_S50000x160_S500000x1_S500000x160_1_0_0_1
    (broadcastInDim S50000x160 ![] bcast_S_S50000x160 (constant (F := Ideal) S_ .f32 0x00000000#32))
    (broadcastInDim S500000x1 ![0] bcast_S500000_S500000x1_0 d) u

/-- Columns 0–159 of the update weight, transposed. -/
def whid0 (w : FVec Ideal S224x224 .f32) : FVec Ideal S160x224 .f32 :=
  transpose S160x224 [1, 0] (extractStridedSlice S224x160 ![0, 0] w slices_S224x224_S224x160_0_0) transposes_S224x160_S160x224_1_0
/-- Columns 160–223 of the update weight, transposed. -/
def whid1 (w : FVec Ideal S224x224 .f32) : FVec Ideal S64x224 .f32 :=
  transpose S64x224 [1, 0] (extractStridedSlice S224x64 ![0, 160] w slices_S224x224_S224x64_0_160) transposes_S224x64_S64x224_1_0
/-- The update bias as a one-row matrix. -/
def bhid (b : FVec Ideal S224 .f32) : FVec Ideal S1x224 .f32 := shapeCast S1x224 b shapeCasts_S224_S1x224

end Cert.KernelIdeal.KerTerm

end
-- ==== Proof.KernelRun.lean ====
/-
  The run of the program with its result array named, and the arrays its two launches are entered with.

  The program is a stretch of array operations, the message launch, a second stretch, the update launch. Every weakly
  fair execution terminates without a fault; the eight argument arrays end as launched; and the result array ends at
  what the update launch's write-backs leave (`run`). The contents a launch is entered with are the fold of the
  operations before it over what the buffers held: at each window's array that fold is a short composition of the
  operations that feed it, a pure term of the argument arrays. Before the message launch: the node rows gathered at
  the source and at the destination indices, the edge features as launched, the three transposed column stretches of
  the message weight and the bias as a row (`entry0`). Before the update launch: the messages the first launch left,
  summed at their destination node, the node table as launched, the two transposed column stretches of the update
  weight and the bias as a row (`entry1`). An argument array is written by no operation and is an output of neither
  launch, so wherever it is read it still holds its launch contents.
-/
import proofs.«122019_j87454124081721_1_alg».proof.Proof.KernelTerm
import proofs.«122019_j87454124081721_1_alg».proof.Proof.Gen.KernelIdeal.Frame
import Idealize.ShloMosaic.Lib.StableHlo.Run

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀ Cert.KernelIdeal.Facts

variable (m : (ℓ : Loc nD τ sig) → Buf (Elt Ideal) ℓ) (ρ : Dev nD → PrngReg)

local notation "𝕄" => MT nD τ sig Unit (Elt Ideal) ℕ (UR sig nD τ) ℕ

/-! ## A buffer no host operation writes -/

/-- A buffer that none of the operations before the first launch writes holds its launch contents when that launch is
    entered. -/
theorem W1_arg (c : Dev nD) (b : Ref sig .tc)
    (hb : (Gen.hostOps0 : List (HloOp τ sig (Elt Ideal))).Forall fun op => (Proc.devRef .tc b : DevRef τ sig) ∉ op.writes) :
    Gen.W1 m ρ c (Proc.devRef .tc b) = m ((c.tc : Thread nD τ).loc b) :=
  StableHlo.after_of_forall_not_mem (b := Proc.devRef .tc b) _ _ (List.forall_iff_forall_mem.mp hb)

/-- A buffer that none of the operations between the launches writes holds, when the second launch is entered, what
    the first launch left in it. -/
theorem W3_arg (c : Dev nD) (b : Ref sig .tc)
    (hb : (Gen.hostOps1 : List (HloOp τ sig (Elt Ideal))).Forall fun op => (Proc.devRef .tc b : DevRef τ sig) ∉ op.writes) :
    Gen.W3 m ρ c (Proc.devRef .tc b) = Gen.W2 m ρ c (Proc.devRef .tc b) :=
  StableHlo.after_of_forall_not_mem (b := Proc.devRef .tc b) _ _ (List.forall_iff_forall_mem.mp hb)

/-- Decides, operation by operation, that a literal reference is no operation's result. -/
local macro "not_written0" : tactic =>
  `(tactic| (
    simp only [Gen.hostOps0, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))
local macro "not_written1" : tactic =>
  `(tactic| (
    simp only [Gen.hostOps1, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)))

/-! ## What the first launch is entered with -/

theorem V1_v6 (c : Dev nD) :
    Gen.V1 m ρ c main_v6 = KerTerm.rows (m ((c.tc : Thread nD τ).loc main_arg0)) (m ((c.tc : Thread nD τ).loc main_arg2)) := by
  show StableHlo.after Gen.hostOps0 (Gen.W0 m ρ c) (Proc.devRef .tc main_v6) = _
  after_results
  rfl

theorem V1_v13 (c : Dev nD) :
    Gen.V1 m ρ c main_v13 = KerTerm.rows (m ((c.tc : Thread nD τ).loc main_arg0)) (m ((c.tc : Thread nD τ).loc main_arg3)) := by
  show StableHlo.after Gen.hostOps0 (Gen.W0 m ρ c) (Proc.devRef .tc main_v13) = _
  after_results
  rfl

theorem V1_arg1 (c : Dev nD) : Gen.V1 m ρ c main_arg1 = m ((c.tc : Thread nD τ).loc main_arg1) :=
  W1_arg m ρ c main_arg1 (by not_written0)

theorem V1_v15 (c : Dev nD) : Gen.V1 m ρ c main_v15 = KerTerm.wmsg0 (m ((c.tc : Thread nD τ).loc main_arg4)) := by
  show StableHlo.after Gen.hostOps0 (Gen.W0 m ρ c) (Proc.devRef .tc main_v15) = _
  after_results
  rfl

theorem V1_v17 (c : Dev nD) : Gen.V1 m ρ c main_v17 = KerTerm.wmsg1 (m ((c.tc : Thread nD τ).loc main_arg4)) := by
  show StableHlo.after Gen.hostOps0 (Gen.W0 m ρ c) (Proc.devRef .tc main_v17) = _
  after_results
  rfl

theorem V1_v19 (c : Dev nD) : Gen.V1 m ρ c main_v19 = KerTerm.wmsg2 (m ((c.tc : Thread nD τ).loc main_arg4)) := by
  show StableHlo.after Gen.hostOps0 (Gen.W0 m ρ c) (Proc.devRef .tc main_v19) = _
  after_results
  rfl

theorem V1_v20 (c : Dev nD) : Gen.V1 m ρ c main_v20 = KerTerm.bmsg (m ((c.tc : Thread nD τ).loc main_arg5)) := by
  show StableHlo.after Gen.hostOps0 (Gen.W0 m ρ c) (Proc.devRef .tc main_v20) = _
  after_results
  rfl

/-- what the first launch is entered with -/
theorem entry0 (c : Dev nD) :
    Gen.V1 m ρ c main_v6 = KerTerm.rows (m ((c.tc : Thread nD τ).loc main_arg0)) (m ((c.tc : Thread nD τ).loc main_arg2))
    ∧ Gen.V1 m ρ c main_v13 = KerTerm.rows (m ((c.tc : Thread nD τ).loc main_arg0)) (m ((c.tc : Thread nD τ).loc main_arg3))
    ∧ Gen.V1 m ρ c main_arg1 = m ((c.tc : Thread nD τ).loc main_arg1)
    ∧ Gen.V1 m ρ c main_v15 = KerTerm.wmsg0 (m ((c.tc : Thread nD τ).loc main_arg4))
    ∧ Gen.V1 m ρ c main_v17 = KerTerm.wmsg1 (m ((c.tc : Thread nD τ).loc main_arg4))
    ∧ Gen.V1 m ρ c main_v19 = KerTerm.wmsg2 (m ((c.tc : Thread nD τ).loc main_arg4))
    ∧ Gen.V1 m ρ c main_v20 = KerTerm.bmsg (m ((c.tc : Thread nD τ).loc main_arg5)) :=
  ⟨V1_v6 m ρ c, V1_v13 m ρ c, V1_arg1 m ρ c, V1_v15 m ρ c, V1_v17 m ρ c, V1_v19 m ρ c, V1_v20 m ρ c⟩

/-! ## What the second launch is entered with -/

/-- The first launch's result array holds, once the launch has ended, what its write-backs leave. -/
theorem W2_v21 (c : Dev nD) :
    Gen.W2 m ρ c (Proc.devRef .tc main_v21) = (Gen.dat0 (Gen.V1 m ρ) c).arrAt 7 cfg0.N :=
  Gen.W2_arr m ρ c 7

/-- An argument array that is no window of the first launch and that no earlier operation writes holds its launch
    contents when that launch has ended. -/
theorem W2_arg0 (c : Dev nD) : Gen.W2 m ρ c (Proc.devRef .tc main_arg0) = m ((c.tc : Thread nD τ).loc main_arg0) :=
  (Gen.W2_of_ne m ρ c main_arg0 (by decide)).trans (W1_arg m ρ c main_arg0 (by not_written0))
theorem W2_arg3 (c : Dev nD) : Gen.W2 m ρ c (Proc.devRef .tc main_arg3) = m ((c.tc : Thread nD τ).loc main_arg3) :=
  (Gen.W2_of_ne m ρ c main_arg3 (by decide)).trans (W1_arg m ρ c main_arg3 (by not_written0))
theorem W2_arg6 (c : Dev nD) : Gen.W2 m ρ c (Proc.devRef .tc main_arg6) = m ((c.tc : Thread nD τ).loc main_arg6) :=
  (Gen.W2_of_ne m ρ c main_arg6 (by decide)).trans (W1_arg m ρ c main_arg6 (by not_written0))
theorem W2_arg7 (c : Dev nD) : Gen.W2 m ρ c (Proc.devRef .tc main_arg7) = m ((c.tc : Thread nD τ).loc main_arg7) :=
  (Gen.W2_of_ne m ρ c main_arg7 (by decide)).trans (W1_arg m ρ c main_arg7 (by not_written0))

theorem V3_v24 (c : Dev nD) :
    Gen.V3 m ρ c main_v24
      = KerTerm.segsum (m ((c.tc : Thread nD τ).loc main_arg3)) ((Gen.dat0 (Gen.V1 m ρ) c).arrAt 7 cfg0.N) := by
  show StableHlo.after Gen.hostOps1 (Gen.W2 m ρ c) (Proc.devRef .tc main_v24) = _
  after_results
  rw [W2_v21, W2_arg3]
  rfl

theorem V3_arg0 (c : Dev nD) : Gen.V3 m ρ c main_arg0 = m ((c.tc : Thread nD τ).loc main_arg0) :=
  (W3_arg m ρ c main_arg0 (by not_written1)).trans (W2_arg0 m ρ c)

theorem V3_v26 (c : Dev nD) : Gen.V3 m ρ c main_v26 = KerTerm.whid0 (m ((c.tc : Thread nD τ).loc main_arg6)) := by
  show StableHlo.after Gen.hostOps1 (Gen.W2 m ρ c) (Proc.devRef .tc main_v26) = _
  after_results
  rw [W2_arg6]
  rfl

theorem V3_v28 (c : Dev nD) : Gen.V3 m ρ c main_v28 = KerTerm.whid1 (m ((c.tc : Thread nD τ).loc main_arg6)) := by
  show StableHlo.after Gen.hostOps1 (Gen.W2 m ρ c) (Proc.devRef .tc main_v28) = _
  after_results
  rw [W2_arg6]
  rfl

theorem V3_v29 (c : Dev nD) : Gen.V3 m ρ c main_v29 = KerTerm.bhid (m ((c.tc : Thread nD τ).loc main_arg7)) := by
  show StableHlo.after Gen.hostOps1 (Gen.W2 m ρ c) (Proc.devRef .tc main_v29) = _
  after_results
  rw [W2_arg7]
  rfl

/-- what the second launch is entered with -/
theorem entry1 (c : Dev nD) :
    Gen.V3 m ρ c main_v24
      = KerTerm.segsum (m ((c.tc : Thread nD τ).loc main_arg3)) ((Gen.dat0 (Gen.V1 m ρ) c).arrAt 7 cfg0.N)
    ∧ Gen.V3 m ρ c main_arg0 = m ((c.tc : Thread nD τ).loc main_arg0)
    ∧ Gen.V3 m ρ c main_v26 = KerTerm.whid0 (m ((c.tc : Thread nD τ).loc main_arg6))
    ∧ Gen.V3 m ρ c main_v28 = KerTerm.whid1 (m ((c.tc : Thread nD τ).loc main_arg6))
    ∧ Gen.V3 m ρ c main_v29 = KerTerm.bhid (m ((c.tc : Thread nD τ).loc main_arg7)) :=
  ⟨V3_v24 m ρ c, V3_arg0 m ρ c, V3_v26 m ρ c, V3_v28 m ρ c, V3_v29 m ρ c⟩

/-! ## The run, with the result array named -/

set_option backward.isDefEq.respectTransparency.types false in
open Cert.KernelIdeal.Gen in
/-- the frame run with the result array named: every weakly fair execution terminates, nothing faulting; the second
    launch's result array ends at what that launch's write-backs leave, from the contents it is entered with; and the
    eight argument arrays end as launched. -/
theorem run : θ_run (defs (F := Ideal)) (onTc (τ := τ) (main (F := Ideal))) ⟨m, fun _ => 0, ρ⟩ (fun r => ∀ c : Dev nD,
      r.2.mem ((c.tc : Thread nD τ).loc main_v30) = (Gen.dat1 (Gen.V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v30 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KerRun

end
-- ==== Proof.KernelWeights.lean ====
/-
  The kernel's weight pieces, read index by index.

  The message weight is stored as [out, in] = [160, 160], its input axis made of three stretches 0–63, 64–127 and
  128–159.  A column stretch cut out and transposed reads, at (k, q), the stored weight at (q, offset + k); the bias
  recast as a one-row matrix reads, at (0, q), the bias at q.  With these readings the message layer written over the
  three transposed pieces is, entry by entry, the message layer written over the stored weight.  The update weight
  [224, 224] with its stretches 0–159 and 160–223 is treated the same way.
-/
import proofs.«122019_j87454124081721_1_alg».proof.Proof.Spec
import proofs.«122019_j87454124081721_1_alg».proof.Proof.KernelTerm
import proofs.«122019_j87454124081721_1_alg».proof.Proof.Gen.KernelIdeal
import Idealize.ShloMosaic.Lib.ValueIdx
import Idealize.ShloMosaic.Lib.ValueLayout

noncomputable section

namespace Cert.KernelIdeal.KerWeights

open Idealize.ShloMosaic Idealize.ShloMosaic.ValueIdx Cert.KernelIdeal
open Cert.KernelIdeal.Facts₀ Cert.KernelIdeal.Facts

/-! ## The message weight's three pieces and its bias -/

/-- Columns 0–63, transposed: entry (k, q) is the stored weight at (q, k). -/
theorem wmsg0_apply (w : FVec Ideal S160x160 .f32) (k : Fin 64) (q : Fin 160) :
    KerTerm.wmsg0 w (ix2 k q) = w (ix2 q (⟨k.val, by omega⟩ : Fin 160)) := by
  unfold KerTerm.wmsg0
  refine (transpose_ix2_apply _ _ k q).trans ?_
  exact slice2_axis1_apply 0 w _ q k ⟨k.val, by omega⟩ (Nat.zero_add _).symm

/-- Columns 64–127, transposed: entry (k, q) is the stored weight at (q, 64 + k). -/
theorem wmsg1_apply (w : FVec Ideal S160x160 .f32) (k : Fin 64) (q : Fin 160) :
    KerTerm.wmsg1 w (ix2 k q) = w (ix2 q (⟨64 + k.val, by omega⟩ : Fin 160)) := by
  unfold KerTerm.wmsg1
  refine (transpose_ix2_apply _ _ k q).trans ?_
  exact slice2_axis1_apply 64 w _ q k ⟨64 + k.val, by omega⟩ rfl

/-- Columns 128–159, transposed: entry (k, q) is the stored weight at (q, 128 + k). -/
theorem wmsg2_apply (w : FVec Ideal S160x160 .f32) (k : Fin 32) (q : Fin 160) :
    KerTerm.wmsg2 w (ix2 k q) = w (ix2 q (⟨128 + k.val, by omega⟩ : Fin 160)) := by
  unfold KerTerm.wmsg2
  refine (transpose_ix2_apply _ _ k q).trans ?_
  exact slice2_axis1_apply 128 w _ q k ⟨128 + k.val, by omega⟩ rfl

/-- The bias as a one-row matrix: entry (0, q) is the bias at q. -/
theorem bmsg_apply (b : FVec Ideal S160 .f32) (q : Fin 160) :
    KerTerm.bmsg b (ix2 (0 : Fin 1) q) = b (ix1 q) := by
  unfold KerTerm.bmsg
  exact shapeCast_a_1a_apply b _ 0 q

/-- The message layer over the three transposed pieces is the message layer over the stored weight. -/
theorem msgArr_weights (n : Nat) (x0 x1 : (Cert.Mpnn.Mat n 64).Idx → EReal) (x2 : (Cert.Mpnn.Mat n 32).Idx → EReal)
    (w : FVec Ideal S160x160 .f32) (b : FVec Ideal S160 .f32) :
    Cert.Mpnn.msgArr n x0 x1 x2 (KerTerm.wmsg0 w) (KerTerm.wmsg1 w) (KerTerm.wmsg2 w) (KerTerm.bmsg b)
      = Cert.Mpnn.msgW n x0 x1 x2 w b := by
  funext i
  obtain ⟨p, q, rfl⟩ : ∃ (p : Fin n) (q : Fin 160), i = ix2 p q := ⟨i 0, i 1, eq_ix2 i⟩
  have e0 : (fun k : Fin 64 => KerTerm.wmsg0 w (ix2 k q)) = fun k => w (ix2 q (⟨k.val, by omega⟩ : Fin 160)) :=
    funext fun k => wmsg0_apply w k q
  have e1 : (fun k : Fin 64 => KerTerm.wmsg1 w (ix2 k q)) = fun k => w (ix2 q (⟨64 + k.val, by omega⟩ : Fin 160)) :=
    funext fun k => wmsg1_apply w k q
  have e2 : (fun k : Fin 32 => KerTerm.wmsg2 w (ix2 k q)) = fun k => w (ix2 q (⟨128 + k.val, by omega⟩ : Fin 160)) :=
    funext fun k => wmsg2_apply w k q
  show Cert.Mpnn.msgCore (fun k => x0 (ix2 p k)) (fun k => x1 (ix2 p k)) (fun k => x2 (ix2 p k))
      (fun k : Fin 64 => KerTerm.wmsg0 w (ix2 k q)) (fun k : Fin 64 => KerTerm.wmsg1 w (ix2 k q))
      (fun k : Fin 32 => KerTerm.wmsg2 w (ix2 k q)) (KerTerm.bmsg b (ix2 (0 : Fin 1) q))
    = Cert.Mpnn.msgCore (fun k => x0 (ix2 p k)) (fun k => x1 (ix2 p k)) (fun k => x2 (ix2 p k))
      (fun k : Fin 64 => w (ix2 q (⟨k.val, by omega⟩ : Fin 160))) (fun k : Fin 64 => w (ix2 q (⟨64 + k.val, by omega⟩ : Fin 160)))
      (fun k : Fin 32 => w (ix2 q (⟨128 + k.val, by omega⟩ : Fin 160))) (b (ix1 q))
  rw [e0, e1, e2, bmsg_apply]

/-! ## The update weight's two pieces and its bias -/

/-- Columns 0–159, transposed: entry (k, q) is the stored weight at (q, k). -/
theorem whid0_apply (w : FVec Ideal S224x224 .f32) (k : Fin 160) (q : Fin 224) :
    KerTerm.whid0 w (ix2 k q) = w (ix2 q (⟨k.val, by omega⟩ : Fin 224)) := by
  unfold KerTerm.whid0
  refine (transpose_ix2_apply _ _ k q).trans ?_
  exact slice2_axis1_apply 0 w _ q k ⟨k.val, by omega⟩ (Nat.zero_add _).symm

/-- Columns 160–223, transposed: entry (k, q) is the stored weight at (q, 160 + k). -/
theorem whid1_apply (w : FVec Ideal S224x224 .f32) (k : Fin 64) (q : Fin 224) :
    KerTerm.whid1 w (ix2 k q) = w (ix2 q (⟨160 + k.val, by omega⟩ : Fin 224)) := by
  unfold KerTerm.whid1
  refine (transpose_ix2_apply _ _ k q).trans ?_
  exact slice2_axis1_apply 160 w _ q k ⟨160 + k.val, by omega⟩ rfl

/-- The bias as a one-row matrix: entry (0, q) is the bias at q. -/
theorem bhid_apply (b : FVec Ideal S224 .f32) (q : Fin 224) :
    KerTerm.bhid b (ix2 (0 : Fin 1) q) = b (ix1 q) := by
  unfold KerTerm.bhid
  exact shapeCast_a_1a_apply b _ 0 q

/-- The update layer over the two transposed pieces is the update layer over the stored weight. -/
theorem updArr_weights (n : Nat) (s : (Cert.Mpnn.Mat n 160).Idx → EReal) (h : (Cert.Mpnn.Mat n 64).Idx → EReal)
    (w : FVec Ideal S224x224 .f32) (b : FVec Ideal S224 .f32) :
    Cert.Mpnn.updArr n s h (KerTerm.whid0 w) (KerTerm.whid1 w) (KerTerm.bhid b) = Cert.Mpnn.updW n s h w b := by
  funext i
  obtain ⟨p, q, rfl⟩ : ∃ (p : Fin n) (q : Fin 224), i = ix2 p q := ⟨i 0, i 1, eq_ix2 i⟩
  have e0 : (fun k : Fin 160 => KerTerm.whid0 w (ix2 k q)) = fun k => w (ix2 q (⟨k.val, by omega⟩ : Fin 224)) :=
    funext fun k => whid0_apply w k q
  have e1 : (fun k : Fin 64 => KerTerm.whid1 w (ix2 k q)) = fun k => w (ix2 q (⟨160 + k.val, by omega⟩ : Fin 224)) :=
    funext fun k => whid1_apply w k q
  show Cert.Mpnn.updCore (fun k => s (ix2 p k)) (fun k => h (ix2 p k))
      (fun k : Fin 160 => KerTerm.whid0 w (ix2 k q)) (fun k : Fin 64 => KerTerm.whid1 w (ix2 k q))
      (KerTerm.bhid b (ix2 (0 : Fin 1) q))
    = Cert.Mpnn.updCore (fun k => s (ix2 p k)) (fun k => h (ix2 p k))
      (fun k : Fin 160 => w (ix2 q (⟨k.val, by omega⟩ : Fin 224))) (fun k : Fin 64 => w (ix2 q (⟨160 + k.val, by omega⟩ : Fin 224)))
      (b (ix1 q))
  rw [e0, e1, bhid_apply]

end Cert.KernelIdeal.KerWeights

end
-- ==== Proof.RefTerm.lean ====
/-
  The reference's result as one pure term of its eight argument arrays.

  The reference computes, for an edge list (src, dst) over 50000 nodes:
    rows a     = h_n[a]                       (a row gather after wrapping a negative index once)
    layer1     = leaky(concat[h_n[src], h_n[dst], h_e] · W_msgᵀ + b_msg)      one message per edge
    segsum     = the messages summed at their destination node (scatter-add into zeros)
    layer2     = leaky(concat[segsum, h_n] · W_hidᵀ + b_hid)                  one row per node
  with leaky(y) = y if y ≥ 0, and 0.01·y otherwise (the slope is the f32 pattern 0x3C23D70A).
  Each piece is named here so that the run of the program and the index-by-index reading of the two dense
  layers can be stated against the same terms.
-/
import proofs.«122019_j87454124081721_1_alg».proof.ReferenceIdeal
import Idealize.ShloMosaic.PureOps.Ideal

noncomputable section

namespace Cert.ReferenceIdeal.RefTerm

open Idealize.ShloMosaic Cert.ReferenceIdeal
open Cert.ReferenceIdeal.Facts₀ Cert.ReferenceIdeal.Facts

variable [Cert.ReferenceIdeal.Facts]

/-- An index vector with each negative entry wrapped once (plus 50000), as a column. -/
def wrapIdx (a : IVec S500000 32) : IVec S500000x1 32 :=
  broadcastInDim S500000x1 ![0] bcast_S500000_S500000x1_0
    (select (cmpi .slt a (broadcastInDim S500000 ![] bcast_S_S500000 (constantI S_ 32 0#32)))
      (addi a (broadcastInDim S500000 ![] bcast_S_S500000 (constantI S_ 32 50000#32))) a)

/-- The rows of the node table picked by an index vector. -/
def rows (a0 : FVec Ideal S50000x64 .f32) (a : IVec S500000 32) : FVec Ideal S500000x64 .f32 :=
  Host.gather gather_S50000x64_S500000x1_S500000x64_1_0_n_n_0_1_164 a0 (wrapIdx a)

/-- The message layer: the three feature blocks side by side, times the transposed weight, plus the bias row, through
    the leaky rectifier. -/
def layer1 (x0 x1 : FVec Ideal S500000x64 .f32) (x2 : FVec Ideal S500000x32 .f32) (w : FVec Ideal S160x160 .f32)
    (b : FVec Ideal S160 .f32) : FVec Ideal S500000x160 .f32 :=
  select
    (cmpf .oge
      (addf
        (Host.dotGeneral dot_S500000x160_S160x160_S500000x160_1_0_0_1_n_n none
          (concatenate S500000x160 1 [⟨S500000x64, x0⟩, ⟨S500000x64, x1⟩, ⟨S500000x32, x2⟩]
            concatenates_S500000x64_S500000x64_S500000x32_S500000x160_d1)
          (transpose S160x160 [1, 0] w transposes_S160x160_S160x160_1_0))
        (broadcastInDim S500000x160 ![0, 1] bcast_S1x160_S500000x160_0_1 (broadcastInDim S1x160 ![1] bcast_S160_S1x160_1 b)))
      (broadcastInDim S500000x160 ![] bcast_S_S500000x160 (constant (F := Ideal) S_ .f32 0x00000000#32)))
    (addf
      (Host.dotGeneral dot_S500000x160_S160x160_S500000x160_1_0_0_1_n_n none
        (concatenate S500000x160 1 [⟨S500000x64, x0⟩, ⟨S500000x64, x1⟩, ⟨S500000x32, x2⟩]
          concatenates_S500000x64_S500000x64_S500000x32_S500000x160_d1)
        (transpose S160x160 [1, 0] w transposes_S160x160_S160x160_1_0))
      (broadcastInDim S500000x160 ![0, 1] bcast_S1x160_S500000x160_0_1 (broadcastInDim S1x160 ![1] bcast_S160_S1x160_1 b)))
    (mulf (broadcastInDim S500000x160 ![] bcast_S_S500000x160 (constant (F := Ideal) S_ .f32 0x3C23D70A#32))
      (addf
        (Host.dotGeneral dot_S500000x160_S160x160_S500000x160_1_0_0_1_n_n none
          (concatenate S500000x160 1 [⟨S500000x64, x0⟩, ⟨S500000x64, x1⟩, ⟨S500000x32, x2⟩]
            concatenates_S500000x64_S500000x64_S500000x32_S500000x160_d1)
          (transpose S160x160 [1, 0] w transposes_S160x160_S160x160_1_0))
        (broadcastInDim S500000x160 ![0, 1] bcast_S1x160_S500000x160_0_1 (broadcastInDim S1x160 ![1] bcast_S160_S1x160_1 b))))

/-- The messages summed at their destination node. -/
def segsum (d : IVec S500000 32) (u : FVec Ideal S500000x160 .f32) : FVec Ideal S50000x160 .f32 :=
  Host.scatterAdd scatter_S50000x160_S500000x1_S500000x160_1_0_0_1
    (broadcastInDim S50000x160 ![] bcast_S_S50000x160 (constant (F := Ideal) S_ .f32 0x00000000#32))
    (broadcastInDim S500000x1 ![0] bcast_S500000_S500000x1_0 d) u

/-- The update layer: the summed messages beside the node features, times the transposed weight, plus the bias row,
    through the leaky rectifier. -/
def layer2 (s : FVec Ideal S50000x160 .f32) (h : FVec Ideal S50000x64 .f32) (w : FVec Ideal S224x224 .f32)
    (b : FVec Ideal S224 .f32) : FVec Ideal S50000x224 .f32 :=
  select
    (cmpf .oge
      (addf
        (Host.dotGeneral dot_S50000x224_S224x224_S50000x224_1_0_0_1_n_n none
          (concatenate S50000x224 1 [⟨S50000x160, s⟩, ⟨S50000x64, h⟩] concatenates_S50000x160_S50000x64_S50000x224_d1)
          (transpose S224x224 [1, 0] w transposes_S224x224_S224x224_1_0))
        (broadcastInDim S50000x224 ![0, 1] bcast_S1x224_S50000x224_0_1 (broadcastInDim S1x224 ![1] bcast_S224_S1x224_1 b)))
      (broadcastInDim S50000x224 ![] bcast_S_S50000x224 (constant (F := Ideal) S_ .f32 0x00000000#32)))
    (addf
      (Host.dotGeneral dot_S50000x224_S224x224_S50000x224_1_0_0_1_n_n none
        (concatenate S50000x224 1 [⟨S50000x160, s⟩, ⟨S50000x64, h⟩] concatenates_S50000x160_S50000x64_S50000x224_d1)
        (transpose S224x224 [1, 0] w transposes_S224x224_S224x224_1_0))
      (broadcastInDim S50000x224 ![0, 1] bcast_S1x224_S50000x224_0_1 (broadcastInDim S1x224 ![1] bcast_S224_S1x224_1 b)))
    (mulf (broadcastInDim S50000x224 ![] bcast_S_S50000x224 (constant (F := Ideal) S_ .f32 0x3C23D70A#32))
      (addf
        (Host.dotGeneral dot_S50000x224_S224x224_S50000x224_1_0_0_1_n_n none
          (concatenate S50000x224 1 [⟨S50000x160, s⟩, ⟨S50000x64, h⟩] concatenates_S50000x160_S50000x64_S50000x224_d1)
          (transpose S224x224 [1, 0] w transposes_S224x224_S224x224_1_0))
        (broadcastInDim S50000x224 ![0, 1] bcast_S1x224_S50000x224_0_1 (broadcastInDim S1x224 ![1] bcast_S224_S1x224_1 b))))

/-- The reference's result: both layers around the segment sum. -/
def out (a0 : FVec Ideal S50000x64 .f32) (a1 : FVec Ideal S500000x32 .f32) (a2 a3 : IVec S500000 32)
    (a4 : FVec Ideal S160x160 .f32) (a5 : FVec Ideal S160 .f32) (a6 : FVec Ideal S224x224 .f32) (a7 : FVec Ideal S224 .f32) :
    FVec Ideal S50000x224 .f32 :=
  layer2 (segsum a3 (layer1 (rows a0 a2) (rows a0 a3) a1 a4 a5)) a0 a6 a7

end Cert.ReferenceIdeal.RefTerm

end
-- ==== Proof.RefLayers.lean ====
/-
  The reference's two dense layers, read index by index.

  The message layer is  leaky((x0 ‖ x1 ‖ x2) · Wᵀ + β)  with the three feature blocks laid side by side along the
  column axis, W the weight stored as [out, in] and β the bias vector spread over the rows.  At entry (p, q) the product
  is the sum over the 160 columns of (x0 ‖ x1 ‖ x2)(p, k) · W(q, k); taken in the three stretches 64 + 64 + 32 it is the
  sum of x0(p, k) · W(q, k), of x1(p, k) · W(q, 64 + k) and of x2(p, k) · W(q, 128 + k).  Adding β(q) and applying the
  rectifier gives the message layer written from the stored weight.  The update layer  leaky((s ‖ h) · Wᵀ + β)  over
  224 = 160 + 64 columns is read the same way.  Only regrouping of a finite sum is used; nothing asks the entries to
  be finite.
-/
import proofs.«122019_j87454124081721_1_alg».proof.Proof.Spec
import proofs.«122019_j87454124081721_1_alg».proof.Proof.RefTerm
import proofs.«122019_j87454124081721_1_alg».proof.Proof.LibPlainDot
import proofs.«122019_j87454124081721_1_alg».proof.Proof.Gen.ReferenceIdeal
import Idealize.ShloMosaic.Lib.ValueIdx
import Idealize.ShloMosaic.Lib.ValueLayout
import Idealize.ShloMosaic.Lib.Pipeline.Value

noncomputable section

namespace Cert.ReferenceIdeal.RefLayers

open Idealize.ShloMosaic Idealize.ShloMosaic.ValueIdx Cert.ReferenceIdeal
open Cert.ReferenceIdeal.Facts₀ Cert.ReferenceIdeal.Facts
open scoped BigOperators

/-! ## The message layer -/

/-- The three feature blocks side by side, read in columns 0–63: the first block. -/
theorem cat3_apply0 (x0 x1 : FVec Ideal S500000x64 .f32) (x2 : FVec Ideal S500000x32 .f32) (p : Fin 500000) (k : Fin 64) :
    concatenate S500000x160 1 [⟨S500000x64, x0⟩, ⟨S500000x64, x1⟩, ⟨S500000x32, x2⟩]
        concatenates_S500000x64_S500000x64_S500000x32_S500000x160_d1 (ix2 p (⟨k.val, by omega⟩ : Fin 160))
      = x0 (ix2 p k) :=
  concatenate_apply_piece (t := S500000x160) 1 [⟨S500000x64, x0⟩, ⟨S500000x64, x1⟩, ⟨S500000x32, x2⟩]
    concatenates_S500000x64_S500000x64_S500000x32_S500000x160_d1 (ix2 p (⟨k.val, by omega⟩ : Fin 160))
    0 (by simp) S500000x64 x0 rfl rfl 0 rfl (ix2 p k)
    (fun b hb => by match b with | ⟨0, _⟩ => rfl | ⟨1, _⟩ => exact absurd rfl hb) (Nat.zero_add _)

/-- The three feature blocks side by side, read in columns 64–127: the second block. -/
theorem cat3_apply1 (x0 x1 : FVec Ideal S500000x64 .f32) (x2 : FVec Ideal S500000x32 .f32) (p : Fin 500000) (k : Fin 64) :
    concatenate S500000x160 1 [⟨S500000x64, x0⟩, ⟨S500000x64, x1⟩, ⟨S500000x32, x2⟩]
        concatenates_S500000x64_S500000x64_S500000x32_S500000x160_d1 (ix2 p (⟨64 + k.val, by omega⟩ : Fin 160))
      = x1 (ix2 p k) :=
  concatenate_apply_piece (t := S500000x160) 1 [⟨S500000x64, x0⟩, ⟨S500000x64, x1⟩, ⟨S500000x32, x2⟩]
    concatenates_S500000x64_S500000x64_S500000x32_S500000x160_d1 (ix2 p (⟨64 + k.val, by omega⟩ : Fin 160))
    1 (by simp) S500000x64 x1 rfl rfl 64 rfl (ix2 p k)
    (fun b hb => by match b with | ⟨0, _⟩ => rfl | ⟨1, _⟩ => exact absurd rfl hb) rfl

/-- The three feature blocks side by side, read in columns 128–159: the third block. -/
theorem cat3_apply2 (x0 x1 : FVec Ideal S500000x64 .f32) (x2 : FVec Ideal S500000x32 .f32) (p : Fin 500000) (k : Fin 32) :
    concatenate S500000x160 1 [⟨S500000x64, x0⟩, ⟨S500000x64, x1⟩, ⟨S500000x32, x2⟩]
        concatenates_S500000x64_S500000x64_S500000x32_S500000x160_d1 (ix2 p (⟨128 + k.val, by omega⟩ : Fin 160))
      = x2 (ix2 p k) :=
  concatenate_apply_piece (t := S500000x160) 1 [⟨S500000x64, x0⟩, ⟨S500000x64, x1⟩, ⟨S500000x32, x2⟩]
    concatenates_S500000x64_S500000x64_S500000x32_S500000x160_d1 (ix2 p (⟨128 + k.val, by omega⟩ : Fin 160))
    2 (by simp) S500000x32 x2 rfl rfl 128 rfl (ix2 p k)
    (fun b hb => by match b with | ⟨0, _⟩ => rfl | ⟨1, _⟩ => exact absurd rfl hb) rfl

/-- The bias vector made a one-row matrix and spread over the rows reads, at (p, q), the bias at q. -/
theorem bias1_apply (b : FVec Ideal S160 .f32) (p : Fin 500000) (q : Fin 160) :
    broadcastInDim S500000x160 ![0, 1] bcast_S1x160_S500000x160_0_1 (broadcastInDim S1x160 ![1] bcast_S160_S1x160_1 b) (ix2 p q)
      = b (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The message layer before the rectifier. -/
def pre1 (x0 x1 : FVec Ideal S500000x64 .f32) (x2 : FVec Ideal S500000x32 .f32) (w : FVec Ideal S160x160 .f32)
    (b : FVec Ideal S160 .f32) : FVec Ideal S500000x160 .f32 :=
  addf
    (Host.dotGeneral dot_S500000x160_S160x160_S500000x160_1_0_0_1_n_n none
      (concatenate S500000x160 1 [⟨S500000x64, x0⟩, ⟨S500000x64, x1⟩, ⟨S500000x32, x2⟩]
        concatenates_S500000x64_S500000x64_S500000x32_S500000x160_d1)
      (transpose S160x160 [1, 0] w transposes_S160x160_S160x160_1_0))
    (broadcastInDim S500000x160 ![0, 1] bcast_S1x160_S500000x160_0_1 (broadcastInDim S1x160 ![1] bcast_S160_S1x160_1 b))

/-- The message layer is the rectifier of that sum, entry by entry. -/
theorem layer1_leaky (x0 x1 : FVec Ideal S500000x64 .f32) (x2 : FVec Ideal S500000x32 .f32) (w : FVec Ideal S160x160 .f32)
    (b : FVec Ideal S160 .f32) :
    RefTerm.layer1 x0 x1 x2 w b = fun j => Cert.Mpnn.leaky (pre1 x0 x1 x2 w b j) := rfl

/-- Before the rectifier, entry (p, q) is the three partial sums against the stored weight's row q, plus the bias at q. -/
theorem pre1_apply (x0 x1 : FVec Ideal S500000x64 .f32) (x2 : FVec Ideal S500000x32 .f32) (w : FVec Ideal S160x160 .f32)
    (b : FVec Ideal S160 .f32) (p : Fin 500000) (q : Fin 160) :
    pre1 x0 x1 x2 w b (ix2 p q)
      = (((∑ k : Fin 64, x0 (ix2 p k) * w (ix2 q (⟨k.val, by omega⟩ : Fin 160)))
          + (∑ k : Fin 64, x1 (ix2 p k) * w (ix2 q (⟨64 + k.val, by omega⟩ : Fin 160))))
          + (∑ k : Fin 32, x2 (ix2 p k) * w (ix2 q (⟨128 + k.val, by omega⟩ : Fin 160))))
        + b (ix1 q) := by
  unfold pre1
  rw [addf_apply]
  refine congrArg₂ (· + ·) ?_ (bias1_apply b p q)
  show Host.dotGeneral (F := Ideal) (DotDims.plain 500000 160 160) none _ _ (ix2 p q) = _
  rw [Cert.Lib.PlainDot.dotGeneral, Cert.Lib.PlainDot.mm_apply, Cert.Mpnn.sum_split160]
  refine congrArg₂ (· + ·) (congrArg₂ (· + ·) ?_ ?_) ?_
  · exact Finset.sum_congr rfl fun k _ =>
      congrArg₂ (· * ·) (cat3_apply0 x0 x1 x2 p k) (transpose_ix2_apply w _ _ q)
  · exact Finset.sum_congr rfl fun k _ =>
      congrArg₂ (· * ·) (cat3_apply1 x0 x1 x2 p k) (transpose_ix2_apply w _ _ q)
  · exact Finset.sum_congr rfl fun k _ =>
      congrArg₂ (· * ·) (cat3_apply2 x0 x1 x2 p k) (transpose_ix2_apply w _ _ q)

/-- The reference's message layer is the message layer written from the stored weight and the bias vector. -/
theorem layer1_eq (x0 x1 : FVec Ideal S500000x64 .f32) (x2 : FVec Ideal S500000x32 .f32) (w : FVec Ideal S160x160 .f32)
    (b : FVec Ideal S160 .f32) :
    RefTerm.layer1 x0 x1 x2 w b = Cert.Mpnn.msgW 500000 x0 x1 x2 w b := by
  rw [layer1_leaky]
  funext i
  obtain ⟨p, q, rfl⟩ : ∃ (p : Fin 500000) (q : Fin 160), i = ix2 p q := ⟨i 0, i 1, eq_ix2 i⟩
  exact congrArg Cert.Mpnn.leaky (pre1_apply x0 x1 x2 w b p q)

/-! ## The update layer -/

/-- The summed messages beside the node features, read in columns 0–159: the summed messages. -/
theorem cat2_apply0 (s : FVec Ideal S50000x160 .f32) (h : FVec Ideal S50000x64 .f32) (p : Fin 50000) (k : Fin 160) :
    concatenate S50000x224 1 [⟨S50000x160, s⟩, ⟨S50000x64, h⟩] concatenates_S50000x160_S50000x64_S50000x224_d1
        (ix2 p (⟨k.val, by omega⟩ : Fin 224))
      = s (ix2 p k) :=
  concatenate_apply_piece (t := S50000x224) 1 [⟨S50000x160, s⟩, ⟨S50000x64, h⟩]
    concatenates_S50000x160_S50000x64_S50000x224_d1 (ix2 p (⟨k.val, by omega⟩ : Fin 224))
    0 (by simp) S50000x160 s rfl rfl 0 rfl (ix2 p k)
    (fun b hb => by match b with | ⟨0, _⟩ => rfl | ⟨1, _⟩ => exact absurd rfl hb) (Nat.zero_add _)

/-- The summed messages beside the node features, read in columns 160–223: the node features. -/
theorem cat2_apply1 (s : FVec Ideal S50000x160 .f32) (h : FVec Ideal S50000x64 .f32) (p : Fin 50000) (k : Fin 64) :
    concatenate S50000x224 1 [⟨S50000x160, s⟩, ⟨S50000x64, h⟩] concatenates_S50000x160_S50000x64_S50000x224_d1
        (ix2 p (⟨160 + k.val, by omega⟩ : Fin 224))
      = h (ix2 p k) :=
  concatenate_apply_piece (t := S50000x224) 1 [⟨S50000x160, s⟩, ⟨S50000x64, h⟩]
    concatenates_S50000x160_S50000x64_S50000x224_d1 (ix2 p (⟨160 + k.val, by omega⟩ : Fin 224))
    1 (by simp) S50000x64 h rfl rfl 160 rfl (ix2 p k)
    (fun b hb => by match b with | ⟨0, _⟩ => rfl | ⟨1, _⟩ => exact absurd rfl hb) rfl

/-- The bias vector made a one-row matrix and spread over the rows reads, at (p, q), the bias at q. -/
theorem bias2_apply (b : FVec Ideal S224 .f32) (p : Fin 50000) (q : Fin 224) :
    broadcastInDim S50000x224 ![0, 1] bcast_S1x224_S50000x224_0_1 (broadcastInDim S1x224 ![1] bcast_S224_S1x224_1 b) (ix2 p q)
      = b (ix1 q) := by
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- The update layer before the rectifier. -/
def pre2 (s : FVec Ideal S50000x160 .f32) (h : FVec Ideal S50000x64 .f32) (w : FVec Ideal S224x224 .f32)
    (b : FVec Ideal S224 .f32) : FVec Ideal S50000x224 .f32 :=
  addf
    (Host.dotGeneral dot_S50000x224_S224x224_S50000x224_1_0_0_1_n_n none
      (concatenate S50000x224 1 [⟨S50000x160, s⟩, ⟨S50000x64, h⟩] concatenates_S50000x160_S50000x64_S50000x224_d1)
      (transpose S224x224 [1, 0] w transposes_S224x224_S224x224_1_0))
    (broadcastInDim S50000x224 ![0, 1] bcast_S1x224_S50000x224_0_1 (broadcastInDim S1x224 ![1] bcast_S224_S1x224_1 b))

/-- The update layer is the rectifier of that sum, entry by entry. -/
theorem layer2_leaky (s : FVec Ideal S50000x160 .f32) (h : FVec Ideal S50000x64 .f32) (w : FVec Ideal S224x224 .f32)
    (b : FVec Ideal S224 .f32) :
    RefTerm.layer2 s h w b = fun j => Cert.Mpnn.leaky (pre2 s h w b j) := rfl

/-- Before the rectifier, entry (p, q) is the two partial sums against the stored weight's row q, plus the bias at q. -/
theorem pre2_apply (s : FVec Ideal S50000x160 .f32) (h : FVec Ideal S50000x64 .f32) (w : FVec Ideal S224x224 .f32)
    (b : FVec Ideal S224 .f32) (p : Fin 50000) (q : Fin 224) :
    pre2 s h w b (ix2 p q)
      = ((∑ k : Fin 160, s (ix2 p k) * w (ix2 q (⟨k.val, by omega⟩ : Fin 224)))
          + (∑ k : Fin 64, h (ix2 p k) * w (ix2 q (⟨160 + k.val, by omega⟩ : Fin 224))))
        + b (ix1 q) := by
  unfold pre2
  rw [addf_apply]
  refine congrArg₂ (· + ·) ?_ (bias2_apply b p q)
  show Host.dotGeneral (F := Ideal) (DotDims.plain 50000 224 224) none _ _ (ix2 p q) = _
  rw [Cert.Lib.PlainDot.dotGeneral, Cert.Lib.PlainDot.mm_apply, Cert.Mpnn.sum_split224]
  refine congrArg₂ (· + ·) ?_ ?_
  · exact Finset.sum_congr rfl fun k _ =>
      congrArg₂ (· * ·) (cat2_apply0 s h p k) (transpose_ix2_apply w _ _ q)
  · exact Finset.sum_congr rfl fun k _ =>
      congrArg₂ (· * ·) (cat2_apply1 s h p k) (transpose_ix2_apply w _ _ q)

/-- The reference's update layer is the update layer written from the stored weight and the bias vector. -/
theorem layer2_eq (s : FVec Ideal S50000x160 .f32) (h : FVec Ideal S50000x64 .f32) (w : FVec Ideal S224x224 .f32)
    (b : FVec Ideal S224 .f32) :
    RefTerm.layer2 s h w b = Cert.Mpnn.updW 50000 s h w b := by
  rw [layer2_leaky]
  funext i
  obtain ⟨p, q, rfl⟩ : ∃ (p : Fin 50000) (q : Fin 224), i = ix2 p q := ⟨i 0, i 1, eq_ix2 i⟩
  exact congrArg Cert.Mpnn.leaky (pre2_apply s h w b p q)

end Cert.ReferenceIdeal.RefLayers

end
-- ==== Proof.Bridge.lean ====
/-
  The two programs compute one function of their argument arrays.

  The kernel program's result array is the update layer of (the messages summed at their destinations, the node table),
  the messages being the message layer of (the rows gathered at the sources, at the destinations, the edge features) —
  each layer with its weight cut into column stretches and transposed on the way in.  The reference's result is the same
  two layers written with the inputs side by side against the whole transposed weight.  Both are read here as the
  layers from the weight as stored (`updW`, `msgW`), around the same gather and the same segment sum, which are never
  opened.
-/
import proofs.«122019_j87454124081721_1_alg».proof.Proof.KernelBlocks0
import proofs.«122019_j87454124081721_1_alg».proof.Proof.KernelBlocks1
import proofs.«122019_j87454124081721_1_alg».proof.Proof.KernelRun
import proofs.«122019_j87454124081721_1_alg».proof.Proof.KernelWeights
import proofs.«122019_j87454124081721_1_alg».proof.Proof.RefLayers

noncomputable section

namespace Cert.Bridge

open Idealize.ShloMosaic Idealize.ShloMosaic.TcCoe Idealize.SL.Sem Cert.Mpnn

/-- The common result: the update layer around the segment sum around the message layer, from the eight arguments. -/
def result (a0 : FVec Ideal Cert.ReferenceIdeal.S50000x64 .f32) (a1 : FVec Ideal Cert.ReferenceIdeal.S500000x32 .f32)
    (a2 a3 : IVec Cert.ReferenceIdeal.S500000 32) (a4 : FVec Ideal Cert.ReferenceIdeal.S160x160 .f32)
    (a5 : FVec Ideal Cert.ReferenceIdeal.S160 .f32) (a6 : FVec Ideal Cert.ReferenceIdeal.S224x224 .f32)
    (a7 : FVec Ideal Cert.ReferenceIdeal.S224 .f32) : FVec Ideal Cert.ReferenceIdeal.S50000x224 .f32 :=
  updW 50000
    (Cert.ReferenceIdeal.RefTerm.segsum a3
      (msgW 500000 (Cert.ReferenceIdeal.RefTerm.rows a0 a2) (Cert.ReferenceIdeal.RefTerm.rows a0 a3) a1 a4 a5))
    a0 a6 a7

/-- The reference's term is the common result. -/
theorem ref_value (a0 : FVec Ideal Cert.ReferenceIdeal.S50000x64 .f32) (a1 : FVec Ideal Cert.ReferenceIdeal.S500000x32 .f32)
    (a2 a3 : IVec Cert.ReferenceIdeal.S500000 32) (a4 : FVec Ideal Cert.ReferenceIdeal.S160x160 .f32)
    (a5 : FVec Ideal Cert.ReferenceIdeal.S160 .f32) (a6 : FVec Ideal Cert.ReferenceIdeal.S224x224 .f32)
    (a7 : FVec Ideal Cert.ReferenceIdeal.S224 .f32) :
    Cert.ReferenceIdeal.RefTerm.out a0 a1 a2 a3 a4 a5 a6 a7 = result a0 a1 a2 a3 a4 a5 a6 a7 := by
  unfold Cert.ReferenceIdeal.RefTerm.out result
  rw [Cert.ReferenceIdeal.RefLayers.layer1_eq, Cert.ReferenceIdeal.RefLayers.layer2_eq]

/-- The two programs gather rows and sum segments by the same operations. -/
theorem rows_same (a0 : FVec Ideal Cert.KernelIdeal.S50000x64 .f32) (a : IVec Cert.KernelIdeal.S500000 32) :
    Cert.KernelIdeal.KerTerm.rows a0 a = Cert.ReferenceIdeal.RefTerm.rows a0 a := rfl

theorem segsum_same (d : IVec Cert.KernelIdeal.S500000 32) (u : FVec Ideal Cert.KernelIdeal.S500000x160 .f32) :
    Cert.KernelIdeal.KerTerm.segsum d u = Cert.ReferenceIdeal.RefTerm.segsum d u := rfl

open Cert.KernelIdeal in
/-- The kernel program's result array is the common result of its arguments. -/
theorem kernel_value (m : (ℓ : Loc nD τ sig) → Buf (Elt Ideal) ℓ) (ρ : Dev nD → PrngReg) (c : Dev nD) :
    (Gen.dat1 (Gen.V3 m ρ) c).arrAt 5 cfg1.N
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  obtain ⟨e24, e0, e26, e28, e29⟩ := KerRun.entry1 m ρ c
  obtain ⟨f6, f13, f1, f15, f17, f19, f20⟩ := KerRun.entry0 m ρ c
  rw [KerBlocks1.final1, e24, e0, e26, e28, e29, KerBlocks.final0, f6, f13, f1, f15, f17, f19, f20]
  rw [KerWeights.updArr_weights, KerWeights.msgArr_weights, rows_same, rows_same, segsum_same]
  rfl

end Cert.Bridge

end
-- ==== Proof.RefRun.lean ====
/-
  The run of the reference program, read back.

  The reference has no kernel: it is a straight line of fifty array operations once its two calls of the leaky rectifier
  (each of which calls the three-way select) are replaced by the callee's own operations over the call's buffers. So
  every weakly fair execution terminates, each buffer ends at the fold of the operations over the launch contents, and
  at the result buffer that fold is the composed term `RefTerm.out` of the eight argument arrays: the two row gathers
  at the wrapped indices, the message layer, the sum of the messages at their destination node, the update layer. The
  argument buffers are written by no operation and keep their launch contents.
-/
import proofs.«122019_j87454124081721_1_alg».proof.Proof.RefTerm
import proofs.«122019_j87454124081721_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Three feature blocks side by side along the second axis. -/
def cat3 (x0 x1 : FVec F S500000x64 .f32) (x2 : FVec F S500000x32 .f32) : FVec F S500000x160 .f32 :=
  concatenate S500000x160 1 [⟨S500000x64, x0⟩, ⟨S500000x64, x1⟩, ⟨S500000x32, x2⟩]
    concatenates_S500000x64_S500000x64_S500000x32_S500000x160_d1

/-- Two feature blocks side by side along the second axis. -/
def cat2 (s : FVec F S50000x160 .f32) (h : FVec F S50000x64 .f32) : FVec F S50000x224 .f32 :=
  concatenate S50000x224 1 [⟨S50000x160, s⟩, ⟨S50000x64, h⟩] concatenates_S50000x160_S50000x64_S50000x224_d1

/-- The program's fifty operations, in order: the twenty-five up to the message layer's affine map and the slope
    constant; the rectifier's seven over the first call's buffers (the zero, its broadcast, the comparison, the slope
    passed on, its broadcast, the product, the select); the eleven of the segment sum and the update layer's affine map
    and slope; the rectifier's seven over the second call's buffers. The two concatenations are written `cat3` and
    `cat2`, which they are by definition. -/
abbrev ops : List (HloOp τ sig (Elt F)) :=
  [ nullary main_c (constantI S_ 32 0#32),
    unary main_c main_v0 (broadcastInDim S500000 ![] bcast_S_S500000 : (⟨S_, .i32⟩ : BufTy).Contents (Elt F) → (⟨S500000, .i32⟩ : BufTy).Contents (Elt F)),
    binary main_arg2 main_v0 main_v1 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v2 (broadcastInDim S500000 ![] bcast_S_S500000 : (⟨S_, .i32⟩ : BufTy).Contents (Elt F) → (⟨S500000, .i32⟩ : BufTy).Contents (Elt F)),
    binary main_arg2 main_v2 main_v3 (addi : (⟨S500000, .i32⟩ : BufTy).Contents (Elt F) → (⟨S500000, .i32⟩ : BufTy).Contents (Elt F) → (⟨S500000, .i32⟩ : BufTy).Contents (Elt F)),
    ternary main_v1 main_v3 main_arg2 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v4 main_v5 (broadcastInDim S500000x1 ![0] bcast_S500000_S500000x1_0 : (⟨S500000, .i32⟩ : BufTy).Contents (Elt F) → (⟨S500000x1, .i32⟩ : BufTy).Contents (Elt F)),
    binary main_arg0 main_v5 main_v6 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    nullary main_c_1 (constantI S_ 32 0#32),
    unary main_c_1 main_v7 (broadcastInDim S500000 ![] bcast_S_S500000 : (⟨S_, .i32⟩ : BufTy).Contents (Elt F) → (⟨S500000, .i32⟩ : BufTy).Contents (Elt F)),
    binary main_arg3 main_v7 main_v8 (cmpi .slt : (⟨S500000, .i32⟩ : BufTy).Contents (Elt F) → (⟨S500000, .i32⟩ : BufTy).Contents (Elt F) → (⟨S500000, .i1⟩ : BufTy).Contents (Elt F)),
    nullary main_c_2 (constantI S_ 32 50000#32),
    unary main_c_2 main_v9 (broadcastInDim S500000 ![] bcast_S_S500000 : (⟨S_, .i32⟩ : BufTy).Contents (Elt F) → (⟨S500000, .i32⟩ : BufTy).Contents (Elt F)),
    binary main_arg3 main_v9 main_v10 (addi : (⟨S500000, .i32⟩ : BufTy).Contents (Elt F) → (⟨S500000, .i32⟩ : BufTy).Contents (Elt F) → (⟨S500000, .i32⟩ : BufTy).Contents (Elt F)),
    ternary main_v8 main_v10 main_arg3 main_v11 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v11 main_v12 (broadcastInDim S500000x1 ![0] bcast_S500000_S500000x1_0 : (⟨S500000, .i32⟩ : BufTy).Contents (Elt F) → (⟨S500000x1, .i32⟩ : BufTy).Contents (Elt F)),
    binary main_arg0 main_v12 main_v13 ((fun x i => Host.gather gather_S50000x64_S500000x1_S500000x64_1_0_n_n_0_1_164 x i) : (⟨S50000x64, .f32⟩ : BufTy).Contents (Elt F) → (⟨S500000x1, .i32⟩ : BufTy).Contents (Elt F) → (⟨S500000x64, .f32⟩ : BufTy).Contents (Elt F)),
    nary ![main_v6, main_v13, main_arg1] main_v14 (fun u => cat3 (u 0) (u 1) (u 2)),
    unary main_arg4 main_v15 ((transpose S160x160 [1, 0] · transposes_S160x160_S160x160_1_0) : (⟨S160x160, .f32⟩ : BufTy).Contents (Elt F) → (⟨S160x160, .f32⟩ : BufTy).Contents (Elt F)),
    binary main_v14 main_v15 main_v16 ((fun l r => Host.dotGeneral dot_S500000x160_S160x160_S500000x160_1_0_0_1_n_n none l r) : (⟨S500000x160, .f32⟩ : BufTy).Contents (Elt F) → (⟨S160x160, .f32⟩ : BufTy).Contents (Elt F) → (⟨S500000x160, .f32⟩ : BufTy).Contents (Elt F)),
    unary main_arg5 main_v17 (broadcastInDim S1x160 ![1] bcast_S160_S1x160_1 : (⟨S160, .f32⟩ : BufTy).Contents (Elt F) → (⟨S1x160, .f32⟩ : BufTy).Contents (Elt F)),
    unary main_v17 main_v18 (broadcastInDim S500000x160 ![0, 1] bcast_S1x160_S500000x160_0_1 : (⟨S1x160, .f32⟩ : BufTy).Contents (Elt F) → (⟨S500000x160, .f32⟩ : BufTy).Contents (Elt F)),
    binary main_v16 main_v18 main_v19 (addf : (⟨S500000x160, .f32⟩ : BufTy).Contents (Elt F) → (⟨S500000x160, .f32⟩ : BufTy).Contents (Elt F) → (⟨S500000x160, .f32⟩ : BufTy).Contents (Elt F)),
    nullary main_cst (constant S_ .f32 0x3C23D70A#32),
    TRef.nullary main_call0.cst (constant S_ .f32 0x00000000#32),
    TRef.unary main_call0.cst main_call0.v0 (broadcastInDim S500000x160 ![] bcast_S_S500000x160),
    TRef.binary (.of main_v19 : TRef sig ⟨S500000x160, .f32⟩) main_call0.v0 main_call0.v1 (cmpf .oge),
    TRef.unary (.of main_cst : TRef sig ⟨S_, .f32⟩) main_call0.v2 id,
    TRef.unary main_call0.v2 main_call0.v3 (broadcastInDim S500000x160 ![] bcast_S_S500000x160),
    TRef.binary main_call0.v3 (.of main_v19 : TRef sig ⟨S500000x160, .f32⟩) main_call0.v4 mulf,
    TRef.ternary main_call0.v1 (.of main_v19 : TRef sig ⟨S500000x160, .f32⟩) main_call0.v4 main_call0.call0.v0 select,
    nullary main_cst_3 (constant S_ .f32 0x00000000#32),
    unary main_cst_3 main_v21 (broadcastInDim S50000x160 ![] bcast_S_S50000x160 : (⟨S_, .f32⟩ : BufTy).Contents (Elt F) → (⟨S50000x160, .f32⟩ : BufTy).Contents (Elt F)),
    unary main_arg3 main_v22 (broadcastInDim S500000x1 ![0] bcast_S500000_S500000x1_0 : (⟨S500000, .i32⟩ : BufTy).Contents (Elt F) → (⟨S500000x1, .i32⟩ : BufTy).Contents (Elt F)),
    ternary main_v21 main_v22 main_v20 main_v23 ((fun x i u => Host.scatterAdd scatter_S50000x160_S500000x1_S500000x160_1_0_0_1 x i u) : (⟨S50000x160, .f32⟩ : BufTy).Contents (Elt F) → (⟨S500000x1, .i32⟩ : BufTy).Contents (Elt F) → (⟨S500000x160, .f32⟩ : BufTy).Contents (Elt F) → (⟨S50000x160, .f32⟩ : BufTy).Contents (Elt F)),
    binary main_v23 main_arg0 main_v24 (cat2 : (⟨S50000x160, .f32⟩ : BufTy).Contents (Elt F) → (⟨S50000x64, .f32⟩ : BufTy).Contents (Elt F) → (⟨S50000x224, .f32⟩ : BufTy).Contents (Elt F)),
    unary main_arg6 main_v25 ((transpose S224x224 [1, 0] · transposes_S224x224_S224x224_1_0) : (⟨S224x224, .f32⟩ : BufTy).Contents (Elt F) → (⟨S224x224, .f32⟩ : BufTy).Contents (Elt F)),
    binary main_v24 main_v25 main_v26 ((fun l r => Host.dotGeneral dot_S50000x224_S224x224_S50000x224_1_0_0_1_n_n none l r) : (⟨S50000x224, .f32⟩ : BufTy).Contents (Elt F) → (⟨S224x224, .f32⟩ : BufTy).Contents (Elt F) → (⟨S50000x224, .f32⟩ : BufTy).Contents (Elt F)),
    unary main_arg7 main_v27 (broadcastInDim S1x224 ![1] bcast_S224_S1x224_1 : (⟨S224, .f32⟩ : BufTy).Contents (Elt F) → (⟨S1x224, .f32⟩ : BufTy).Contents (Elt F)),
    unary main_v27 main_v28 (broadcastInDim S50000x224 ![0, 1] bcast_S1x224_S50000x224_0_1 : (⟨S1x224, .f32⟩ : BufTy).Contents (Elt F) → (⟨S50000x224, .f32⟩ : BufTy).Contents (Elt F)),
    binary main_v26 main_v28 main_v29 (addf : (⟨S50000x224, .f32⟩ : BufTy).Contents (Elt F) → (⟨S50000x224, .f32⟩ : BufTy).Contents (Elt F) → (⟨S50000x224, .f32⟩ : BufTy).Contents (Elt F)),
    nullary main_cst_4 (constant S_ .f32 0x3C23D70A#32),
    TRef.nullary main_call1.cst (constant S_ .f32 0x00000000#32),
    TRef.unary main_call1.cst main_call1.v0 (broadcastInDim S50000x224 ![] bcast_S_S50000x224),
    TRef.binary (.of main_v29 : TRef sig ⟨S50000x224, .f32⟩) main_call1.v0 main_call1.v1 (cmpf .oge),
    TRef.unary (.of main_cst_4 : TRef sig ⟨S_, .f32⟩) main_call1.v2 id,
    TRef.unary main_call1.v2 main_call1.v3 (broadcastInDim S50000x224 ![] bcast_S_S50000x224),
    TRef.binary main_call1.v3 (.of main_v29 : TRef sig ⟨S50000x224, .f32⟩) main_call1.v4 mulf,
    TRef.ternary main_call1.v1 (.of main_v29 : TRef sig ⟨S50000x224, .f32⟩) main_call1.v4 main_call1.call0.v0 select ]

-- fifty binds re-associated: the rewrite under the chain recurses once per statement
set_option maxRecDepth 1024 in
/-- @main is that straight line: the two functions' definitions unfolded at their calls and the calls' records at their
    fields, both sides are one chain of steps once sequencing is reassociated. -/
theorem main_eq (c : Dev nD) : main (F := F) c = seq ops := by
  simp only [main, fn_leaky_relu.body, fn_leaky_relu_0.body, fn_where.body, fn_where_1.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- The three-operand concatenate's result with each operand's contents at its own buffer (the operands are read
    through a family of three buffers; at each of its three indices the family is that operand's buffer). -/
theorem cat3_result' (hxs hy) (W : Valuation τ sig (Elt F)) :
    (nary (τ := τ) ![main_v6, main_v13, main_arg1] main_v14 (fun u => cat3 (F := F) (u 0) (u 1) (u 2)) hxs hy).result W (no_index (Proc.devRef .tc main_v14))
      = cat3 (W (Proc.devRef .tc main_v6)) (W (Proc.devRef .tc main_v13)) (W (Proc.devRef .tc main_arg1)) := by
  rw [nary_result]; rfl

/-- The fold at the result buffer is the composed term: each operation's result at its own buffer is its function of
    its operands' contents, and at any other buffer what was there; what is left once every buffer is read back is the
    composed term with the two concatenations and the pieces of `RefTerm.out` unfolded, the typed buffers' transports
    the identity. -/
theorem out_eq (V : Valuation τ sig (Elt Ideal)) :
    after ops V (main_v30 : DevRef τ sig)
      = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp (disch := decide) only [after_cons, after_nil, nullary_result', unary_result', binary_result', ternary_result', cat3_result',
    nullary_result_ne', unary_result_ne', binary_result_ne', ternary_result_ne', nary_result_ne']
  simp only [RefTerm.out, RefTerm.layer2, RefTerm.segsum, RefTerm.layer1, RefTerm.rows, RefTerm.wrapIdx, cat2, cat3, TRef.toBuf, TRef.ofBuf, cast_eq, id_eq]

/-! No operation writes an argument buffer: each keeps its launch contents. -/

theorem arg0_eq (V : Valuation τ sig (Elt F)) :
    after ops V (main_arg0 : DevRef τ sig) = V (main_arg0 : DevRef τ sig) := by
  simp (disch := decide) only [after_cons, after_nil, nullary_result', unary_result', binary_result', ternary_result', cat3_result',
    nullary_result_ne', unary_result_ne', binary_result_ne', ternary_result_ne', nary_result_ne']

theorem arg1_eq (V : Valuation τ sig (Elt F)) :
    after ops V (main_arg1 : DevRef τ sig) = V (main_arg1 : DevRef τ sig) := by
  simp (disch := decide) only [after_cons, after_nil, nullary_result', unary_result', binary_result', ternary_result', cat3_result',
    nullary_result_ne', unary_result_ne', binary_result_ne', ternary_result_ne', nary_result_ne']

theorem arg2_eq (V : Valuation τ sig (Elt F)) :
    after ops V (main_arg2 : DevRef τ sig) = V (main_arg2 : DevRef τ sig) := by
  simp (disch := decide) only [after_cons, after_nil, nullary_result', unary_result', binary_result', ternary_result', cat3_result',
    nullary_result_ne', unary_result_ne', binary_result_ne', ternary_result_ne', nary_result_ne']

theorem arg3_eq (V : Valuation τ sig (Elt F)) :
    after ops V (main_arg3 : DevRef τ sig) = V (main_arg3 : DevRef τ sig) := by
  simp (disch := decide) only [after_cons, after_nil, nullary_result', unary_result', binary_result', ternary_result', cat3_result',
    nullary_result_ne', unary_result_ne', binary_result_ne', ternary_result_ne', nary_result_ne']

theorem arg4_eq (V : Valuation τ sig (Elt F)) :
    after ops V (main_arg4 : DevRef τ sig) = V (main_arg4 : DevRef τ sig) := by
  simp (disch := decide) only [after_cons, after_nil, nullary_result', unary_result', binary_result', ternary_result', cat3_result',
    nullary_result_ne', unary_result_ne', binary_result_ne', ternary_result_ne', nary_result_ne']

theorem arg5_eq (V : Valuation τ sig (Elt F)) :
    after ops V (main_arg5 : DevRef τ sig) = V (main_arg5 : DevRef τ sig) := by
  simp (disch := decide) only [after_cons, after_nil, nullary_result', unary_result', binary_result', ternary_result', cat3_result',
    nullary_result_ne', unary_result_ne', binary_result_ne', ternary_result_ne', nary_result_ne']

theorem arg6_eq (V : Valuation τ sig (Elt F)) :
    after ops V (main_arg6 : DevRef τ sig) = V (main_arg6 : DevRef τ sig) := by
  simp (disch := decide) only [after_cons, after_nil, nullary_result', unary_result', binary_result', ternary_result', cat3_result',
    nullary_result_ne', unary_result_ne', binary_result_ne', ternary_result_ne', nary_result_ne']

theorem arg7_eq (V : Valuation τ sig (Elt F)) :
    after ops V (main_arg7 : DevRef τ sig) = V (main_arg7 : DevRef τ sig) := by
  simp (disch := decide) only [after_cons, after_nil, nullary_result', unary_result', binary_result', ternary_result', cat3_result',
    nullary_result_ne', unary_result_ne', binary_result_ne', ternary_result_ne', nary_result_ne']

/-- On the one device, from any memory with zero counters: every weakly fair execution of the reference terminates with
    the result buffer at `RefTerm.out` of the eight argument arrays' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v30) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  (θ_run defs _ _).mono (fun _ h c => ⟨(h c main_v30).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.ReferenceIdeal.RefRun

end
-- ==== Proof.lean ====
/-
  One message-passing step of a graph network, computed two ways, is one function on the extended reals.

  For 50000 nodes with 64 features, 500000 edges (src, dst) with 32 features, the step is
      m      = leaky(concat[h_n[src], h_n[dst], h_e] · W_msgᵀ + b_msg)        a 160-vector per edge,
      m_sum  = the messages summed at their destination node,
      h_out  = leaky(concat[m_sum, h_n] · W_hidᵀ + b_hid)                      a 224-vector per node,
  with leaky(y) = y for y ≥ 0 and 0.01·y otherwise.  The reference computes it as written.  The kernel program gathers
  the rows on the host, computes each dense layer in a launch over blocks of 2000 rows — each concat-product as a sum of
  partial products against column stretches of the weight (64 + 64 + 32 columns, then 160 + 64) — and sums the segments
  on the host between the two launches.

  At the exact values a change of float format is the identity and a matrix product is a plain sum, so the two sides
  differ only in how a sum over 160 (or 224) indices is grouped: commutativity and associativity of addition on the
  extended reals, with no need for the inputs to be finite.  The gather and the segment sum are the same operations on
  both sides and are carried unopened.  The frames of the two kernel programs are the generated ones; the reference's is
  its run with the result dropped.  The idealization rewrote nothing, so that claim is trivial.
-/
import proofs.«122019_j87454124081721_1_alg».proof.Defs
import proofs.«122019_j87454124081721_1_alg».proof.Proof.Gen.Kernel
import proofs.«122019_j87454124081721_1_alg».proof.Proof.Gen.Kernel.Frame
import proofs.«122019_j87454124081721_1_alg».proof.Proof.Gen.KernelIdeal
import proofs.«122019_j87454124081721_1_alg».proof.Proof.Gen.KernelIdeal.Frame
import proofs.«122019_j87454124081721_1_alg».proof.Proof.Gen.ReferenceIdeal
import proofs.«122019_j87454124081721_1_alg».proof.Proof.Gen.Pre_finite_inputs
import proofs.«122019_j87454124081721_1_alg».proof.Proof.Bridge
import proofs.«122019_j87454124081721_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run m ρ)

/-- From memories agreeing on the arguments both programs end with the common result of those arguments. -/
theorem algebraic : Cert.algebraic_KernelIdeal_ReferenceIdeal := by
  intro m ρ m' ρ' _ hagree
  refine ⟨fun c => (Cert.KernelIdeal.Gen.dat1 (Cert.KernelIdeal.Gen.V3 m ρ) c).arrAt 5 Cert.KernelIdeal.cfg1.N,
    Cert.KernelIdeal.KerRun.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7⟩ := hagree c
  rw [h0, h1, h2, h3, h4, h5, h6, h7, Cert.Bridge.ref_value]
  exact (Cert.Bridge.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
